-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x768 : Shape := ⟨3, ![32, 1024, 768]⟩
abbrev S32x2048x768 : Shape := ⟨3, ![32, 2048, 768]⟩
abbrev S_ : Shape := ⟨0, ![]⟩

class Facts : Prop where
  bcast_S_S32x1024x768 : S_.BroadcastsInDim S32x1024x768 (![] : Fin 0 → Fin S32x1024x768.rank)
  reducesTo_S32x1024x768_S_d0_1_2 : S32x1024x768.ReducesTo [0, 1, 2] S_
  h_S_ : 0 < S_.numel
  bcast_S_S32x2048x768 : S_.BroadcastsInDim S32x2048x768 (![] : Fin 0 → Fin S32x2048x768.rank)
  reducesTo_S32x2048x768_S_d0_1_2 : S32x2048x768.ReducesTo [0, 1, 2] S_

variable [Facts]

def fn {F : FTy → Type} [FloatOps F] (main_arg0 : FVec F S32x1024x768 .f32) (main_arg1 : FVec F S32x2048x768 .f32) : IVec S_ 1 :=
  let main_v0 : FVec F S32x1024x768 .f32 := Host.absf main_arg0
  let main_cst : FVec F S_ .f32 := constant S_ .f32 0x7F800000#32
  let main_v1 : FVec F S32x1024x768 .f32 := broadcastInDim S32x1024x768 ![] bcast_S_S32x1024x768 main_cst
  let main_v2 : IVec S32x1024x768 1 := cmpf .olt main_v0 main_v1
  let main_c : IVec S_ 1 := constantI S_ 1 1#1
  let main_v3 : IVec S_ 1 := (fun x v => Host.reduce IntOp.andi x v reducesTo_S32x1024x768_S_d0_1_2 h_S_) main_v2 main_c
  let main_v4 : FVec F S32x2048x768 .f32 := Host.absf main_arg1
  let main_cst_0 : FVec F S_ .f32 := constant S_ .f32 0x7F800000#32
  let main_v5 : FVec F S32x2048x768 .f32 := broadcastInDim S32x2048x768 ![] bcast_S_S32x2048x768 main_cst_0
  let main_v6 : IVec S32x2048x768 1 := cmpf .olt main_v4 main_v5
  let main_c_1 : IVec S_ 1 := constantI S_ 1 1#1
  let main_v7 : IVec S_ 1 := (fun x v => Host.reduce IntOp.andi x v reducesTo_S32x2048x768_S_d0_1_2 h_S_) main_v6 main_c_1
  let main_v8 : IVec S_ 1 := andi main_v3 main_v7
  main_v8
-- ==== Kernel.lean ====
abbrev S32x1024x768 : Shape := ⟨3, ![32, 1024, 768]⟩
abbrev S32x2048x768 : Shape := ⟨3, ![32, 2048, 768]⟩
abbrev S32x3072x768 : Shape := ⟨3, ![32, 3072, 768]⟩
abbrev S1x1024x768 : Shape := ⟨3, ![1, 1024, 768]⟩
abbrev S1x2048x768 : Shape := ⟨3, ![1, 2048, 768]⟩
abbrev S1x3072x768 : Shape := ⟨3, ![1, 3072, 768]⟩
abbrev S1024x2048 : Shape := ⟨2, ![1024, 2048]⟩
abbrev S1024x768 : Shape := ⟨2, ![1024, 768]⟩
abbrev S2048x768 : Shape := ⟨2, ![2048, 768]⟩
abbrev S1x128x768 : Shape := ⟨3, ![1, 128, 768]⟩
abbrev S128x768 : Shape := ⟨2, ![128, 768]⟩
abbrev S128x2048 : Shape := ⟨2, ![128, 2048]⟩
abbrev S128 : Shape := ⟨1, ![128]⟩
abbrev S128x1 : Shape := ⟨2, ![128, 1]⟩
abbrev S1024x128 : Shape := ⟨2, ![1024, 128]⟩
abbrev S1x128 : Shape := ⟨2, ![1, 128]⟩

abbrev nBuf : Space → Nat
  | .hbm => 3
  | .vmem => 6
  | .smem => 0
  | _ => 0

abbrev bufTy : (tb : Table) → Fin (tcTables nBuf tb) → BufTy
  | .hbm, ⟨0, _⟩ => ⟨S32x1024x768, .f32⟩
  | .hbm, ⟨1, _⟩ => ⟨S32x2048x768, .f32⟩
  | .hbm, ⟨2, _⟩ => ⟨S32x3072x768, .f32⟩
  | .local _ .vmem, ⟨0, _⟩ => ⟨S1x1024x768, .f32⟩
  | .local _ .vmem, ⟨1, _⟩ => ⟨S1x2048x768, .f32⟩
  | .local _ .vmem, ⟨2, _⟩ => ⟨S1x3072x768, .f32⟩
  | .local _ .vmem, ⟨3, _⟩ => ⟨S1024x2048, .f32⟩
  | .local _ .vmem, ⟨4, _⟩ => ⟨S1024x768, .bf16⟩
  | .local _ .vmem, ⟨5, _⟩ => ⟨S2048x768, .bf16⟩
  | _, _ => ⟨S32x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c8_i32 : BitVec 32 := 8#32
  let v12 : BitVec 32 := Scalar.addi c0_i32 c8_i32
  let c1_i32 : BitVec 32 := 1#32
  ⟨c0_i32, v12, c1_i32⟩
def k0_mult1 (k0_t1 : Fin k0_t1_loop.trips) : BitVec 32 :=
  let c0_i32_14 : BitVec 32 := 0#32
  let c0_i32 : BitVec 32 := 0#32
  let c1_i32 : BitVec 32 := 1#32
  let arg7 : BitVec 32 := Scf.iv c0_i32 c1_i32 k0_t1
  let c1_i32_13 : BitVec 32 := 1#32
  let v14 : BitVec 32 := Scalar.muli arg7 c1_i32_13
  let v15 : BitVec 32 := Scalar.addi c0_i32_14 v14
  let c128_i32 : BitVec 32 := 128#32
  let v16 : BitVec 32 := Scalar.muli v15 c128_i32
  v16
def k0_off1 (k0_t1 : Fin k0_t1_loop.trips) : Fin 3 → Nat :=
  let c0_15 : Index := 0#32
  let c0_i32_14 : BitVec 32 := 0#32
  let c0_i32 : BitVec 32 := 0#32
  let c1_i32 : BitVec 32 := 1#32
  let arg7 : BitVec 32 := Scf.iv c0_i32 c1_i32 k0_t1
  let c1_i32_13 : BitVec 32 := 1#32
  let v14 : BitVec 32 := Scalar.muli arg7 c1_i32_13
  let v15 : BitVec 32 := Scalar.addi c0_i32_14 v14
  let c128_i32 : BitVec 32 := 128#32
  let v16 : BitVec 32 := Scalar.muli v15 c128_i32
  let v17 : BitVec 32 := v16
  let v18 : Index := Scalar.indexCast v17
  let c0_16 : Index := 0#32
  ![0, v18.toNat, 0]
def k0_off2 (k0_t1 : Fin k0_t1_loop.trips) : Fin 2 → Nat :=
  let c0_i32_14 : BitVec 32 := 0#32
  let c0_i32 : BitVec 32 := 0#32
  let c1_i32 : BitVec 32 := 1#32
  let arg7 : BitVec 32 := Scf.iv c0_i32 c1_i32 k0_t1
  let c1_i32_13 : BitVec 32 := 1#32
  let v14 : BitVec 32 := Scalar.muli arg7 c1_i32_13
  let v15 : BitVec 32 := Scalar.addi c0_i32_14 v14
  let c128_i32 : BitVec 32 := 128#32
  let v16 : BitVec 32 := Scalar.muli v15 c128_i32
  let v17 : BitVec 32 := v16
  let v24 : Index := Scalar.indexCast v17
  let c0_20 : Index := 0#32
  ![v24.toNat, 0]
def k0_off3 (k0_t1 : Fin k0_t1_loop.trips) : Fin 3 → Nat :=
  let c0_26 : Index := 0#32
  let c0_i32_14 : BitVec 32 := 0#32
  let c0_i32 : BitVec 32 := 0#32
  let c1_i32 : BitVec 32 := 1#32
  let arg7 : BitVec 32 := Scf.iv c0_i32 c1_i32 k0_t1
  let c1_i32_13 : BitVec 32 := 1#32
  let v14 : BitVec 32 := Scalar.muli arg7 c1_i32_13
  let v15 : BitVec 32 := Scalar.addi c0_i32_14 v14
  let c128_i32 : BitVec 32 := 128#32
  let v16 : BitVec 32 := Scalar.muli v15 c128_i32
  let v17 : BitVec 32 := v16
  let v40 : Index := Scalar.indexCast v17
  let c0_27 : Index := 0#32
  ![0, v40.toNat, 0]
@[reducible] def k0_t2_loop : Scf.Loop 32 :=
  let c0_i32_10 : BitVec 32 := 0#32
  let c16_i32 : BitVec 32 := 16#32
  let v13 : BitVec 32 := Scalar.addi c0_i32_10 c16_i32
  let c1_i32_11 : BitVec 32 := 1#32
  ⟨c0_i32_10, v13, c1_i32_11⟩
def k0_mult2 (k0_t2 : Fin k0_t2_loop.trips) : BitVec 32 :=
  let c0_i32_14 : BitVec 32 := 0#32
  let c0_i32_10 : BitVec 32 := 0#32
  let c1_i32_11 : BitVec 32 := 1#32
  let arg7 : BitVec 32 := Scf.iv c0_i32_10 c1_i32_11 k0_t2
  let c1_i32_13 : BitVec 32 := 1#32
  let v14 : BitVec 32 := Scalar.muli arg7 c1_i32_13
  let v15 : BitVec 32 := Scalar.addi c0_i32_14 v14
  let c128_i32 : BitVec 32 := 128#32
  let v16 : BitVec 32 := Scalar.muli v15 c128_i32
  v16
def k0_off4 (k0_t2 : Fin k0_t2_loop.trips) : Fin 2 → Nat :=
  let c0_15 : Index := 0#32
  let c0_i32_14 : BitVec 32 := 0#32
  let c0_i32_10 : BitVec 32 := 0#32
  let c1_i32_11 : BitVec 32 := 1#32
  let arg7 : BitVec 32 := Scf.iv c0_i32_10 c1_i32_11 k0_t2
  let c1_i32_13 : BitVec 32 := 1#32
  let v14 : BitVec 32 := Scalar.muli arg7 c1_i32_13
  let v15 : BitVec 32 := Scalar.addi c0_i32_14 v14
  let c128_i32 : BitVec 32 := 128#32
  let v16 : BitVec 32 := Scalar.muli v15 c128_i32
  let v17 : BitVec 32 := v16
  let v18 : Index := Scalar.indexCast v17
  ![0, v18.toNat]
def k0_mult3 (k0_t2 : Fin k0_t2_loop.trips) : BitVec 32 :=
  let c1024_i32 : BitVec 32 := 1024#32
  let c0_i32_14 : BitVec 32 := 0#32
  let c0_i32_10 : BitVec 32 := 0#32
  let c1_i32_11 : BitVec 32 := 1#32
  let arg7 : BitVec 32 := Scf.iv c0_i32_10 c1_i32_11 k0_t2
  let c1_i32_13 : BitVec 32 := 1#32
  let v14 : BitVec 32 := Scalar.muli arg7 c1_i32_13
  let v15 : BitVec 32 := Scalar.addi c0_i32_14 v14
  let c128_i32 : BitVec 32 := 128#32
  let v16 : BitVec 32 := Scalar.muli v15 c128_i32
  let v17 : BitVec 32 := v16
  let v32 : BitVec 32 := Scalar.addi c1024_i32 v17
  v32
def k0_off5 (k0_t2 : Fin k0_t2_loop.trips) : Fin 3 → Nat :=
  let c0_20 : Index := 0#32
  let c1024_i32 : BitVec 32 := 1024#32
  let c0_i32_14 : BitVec 32 := 0#32
  let c0_i32_10 : BitVec 32 := 0#32
  let c1_i32_11 : BitVec 32 := 1#32
  let arg7 : BitVec 32 := Scf.iv c0_i32_10 c1_i32_11 k0_t2
  let c1_i32_13 : BitVec 32 := 1#32
  let v14 : BitVec 32 := Scalar.muli arg7 c1_i32_13
  let v15 : BitVec 32 := Scalar.addi c0_i32_14 v14
  let c128_i32 : BitVec 32 := 128#32
  let v16 : BitVec 32 := Scalar.muli v15 c128_i32
  let v17 : BitVec 32 := v16
  let v32 : BitVec 32 := Scalar.addi c1024_i32 v17
  let v33 : BitVec 32 := v32
  let v34 : Index := Scalar.indexCast v33
  let c0_21 : Index := 0#32
  ![0, v34.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x1024x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x3072x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

class Facts₀ : Prop where
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  bitsLt_bf16_f32 : FTy.bits .bf16 < FTy.bits .f32
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  packedbf16_S1024x768_S1024x768_0_0 : (Rect.unit (s := S1024x768) ![0, 0] S1024x768.size inb_S1024x768_S1024x768_0_0).PackedRows (EltTy.packing .bf16)
  inb_S1x2048x768_S1x2048x768_0_0_0 : ∀ a, (![0, 0, 0] : Fin 3 → Nat) a + S1x2048x768.size a ≤ S1x2048x768.size a
  h_S1x2048x768 : 0 < S1x2048x768.numel
  shapeCasts_S1x2048x768_S2048x768 : S1x2048x768.ShapeCasts S2048x768
  inb_S2048x768_S2048x768_0_0 : ∀ a, (![0, 0] : Fin 2 → Nat) a + S2048x768.size a ≤ S2048x768.size a
  h_S2048x768 : 0 < S2048x768.numel
  shapeCasts_S2048x768_S2048x768 : S2048x768.ShapeCasts S2048x768
  packedbf16_S2048x768_S2048x768_0_0 : (Rect.unit (s := S2048x768) ![0, 0] S2048x768.size inb_S2048x768_S2048x768_0_0).PackedRows (EltTy.packing .bf16)
  h_S1x128x768 : 0 < S1x128x768.numel
  shapeCasts_S1x128x768_S128x768 : S1x128x768.ShapeCasts S128x768
  h_S128x2048 : 0 < S128x2048.numel
  shapeCasts_S128x2048_S128x2048 : S128x2048.ShapeCasts S128x2048
  reduces_S128x2048_S128 : S128x2048.Reduces [1] S128
  shapeCasts_S128_S128x1 : S128.ShapeCasts S128x1
  broadcasts_S128x1_S128x2048 : S128x1.Broadcasts S128x2048
  shapeCasts_S128x768_S1x128x768 : S128x768.ShapeCasts S1x128x768
  h_S1024x128 : 0 < S1024x128.numel
  reduces_S1024x128_S128 : S1024x128.Reduces [0] S128
  shapeCasts_S128_S1x128 : S128.ShapeCasts S1x128
  broadcasts_S1x128_S1024x128 : S1x128.Broadcasts S1024x128
  dot_S128x768_S2048x768_S128x2048_1_1_0_0_n_n_wf : DotDims.WF S128x768 S2048x768 S128x2048 [1] [1] [0] [0] [] []
  dot_S128x2048_S2048x768_S128x768_1_0_0_1_n_n_wf : DotDims.WF S128x2048 S2048x768 S128x768 [1] [0] [0] [1] [] []
  dot_S1024x128_S1024x768_S128x768_0_0_1_1_n_n_wf : DotDims.WF S1024x128 S1024x768 S128x768 [0] [0] [1] [1] [] []
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S1x128x768.size a ≤ S1x1024x768.size a
  k0_off2_inb : ∀ k0_t1 : Fin k0_t1_loop.trips, ∀ a, (k0_off2 k0_t1) a + S128x2048.size a ≤ S1024x2048.size a
  k0_off3_inb : ∀ k0_t1 : Fin k0_t1_loop.trips, ∀ a, (k0_off3 k0_t1) a + S1x128x768.size a ≤ S1x3072x768.size a
  k0_t2_ok : k0_t2_loop.OK
  k0_mult2_dvd : ∀ k0_t2 : Fin k0_t2_loop.trips, 128 ∣ (k0_mult2 k0_t2).toNat
  k0_off4_inb : ∀ k0_t2 : Fin k0_t2_loop.trips, ∀ a, (k0_off4 k0_t2) a + S1024x128.size a ≤ S1024x2048.size a
  k0_mult3_dvd : ∀ k0_t2 : Fin k0_t2_loop.trips, 128 ∣ (k0_mult3 k0_t2).toNat
  k0_off5_inb : ∀ k0_t2 : Fin k0_t2_loop.trips, ∀ a, (k0_off5 k0_t2) a + S1x128x768.size a ≤ S1x3072x768.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1024x768.size a ≤ S32x1024x768.size a
  hwx0_0 : ∀ i : grid0.Coords, EltTy.bits .f32 = 32 ∨ (Rect.block (s := S32x1024x768) S1x1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048x768.size a ≤ S32x2048x768.size a
  hwx0_1 : ∀ i : grid0.Coords, EltTy.bits .f32 = 32 ∨ (Rect.block (s := S32x2048x768) S1x2048x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072x768.size a ≤ S32x3072x768.size a
  hwx0_2 : ∀ i : grid0.Coords, EltTy.bits .f32 = 32 ∨ (Rect.block (s := S32x3072x768) S1x3072x768.size (cc0_transform_2 i) (hinb0_2 i)).WholeWords (EltTy.packing .f32)

variable [Facts₀]

def dot_S128x768_S2048x768_S128x2048_1_1_0_0_n_n : DotDims S128x768 S2048x768 S128x2048 where
  lhsContracting := [1]
  rhsContracting := [1]
  lhsNonContracting := [0]
  rhsNonContracting := [0]
  lhsBatch := []
  rhsBatch := []
  wf := dot_S128x768_S2048x768_S128x2048_1_1_0_0_n_n_wf
def dot_S128x2048_S2048x768_S128x768_1_0_0_1_n_n : DotDims S128x2048 S2048x768 S128x768 where
  lhsContracting := [1]
  rhsContracting := [0]
  lhsNonContracting := [0]
  rhsNonContracting := [1]
  lhsBatch := []
  rhsBatch := []
  wf := dot_S128x2048_S2048x768_S128x768_1_0_0_1_n_n_wf
def dot_S1024x128_S1024x768_S128x768_0_0_1_1_n_n : DotDims S1024x128 S1024x768 S128x768 where
  lhsContracting := [0]
  rhsContracting := [0]
  lhsNonContracting := [1]
  rhsNonContracting := [1]
  lhsBatch := []
  rhsBatch := []
  wf := dot_S1024x128_S1024x768_S128x768_0_0_1_1_n_n_wf

abbrev win0_0 : Pipeline.Window sig grid0 :=
  Pipeline.Window.ofSpec (Memref.whole main_arg0) S1x1024x768.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x3072x768.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x1024x768 : Shape := ⟨3, ![32, 1024, 768]⟩
abbrev S32x2048x768 : Shape := ⟨3, ![32, 2048, 768]⟩
abbrev S32x1024x2048 : Shape := ⟨3, ![32, 1024, 2048]⟩
abbrev S_ : Shape := ⟨0, ![]⟩
abbrev S32x1024 : Shape := ⟨2, ![32, 1024]⟩
abbrev S32x1024x1 : Shape := ⟨3, ![32, 1024, 1]⟩
abbrev S32x2048x1024 : Shape := ⟨3, ![32, 2048, 1024]⟩
abbrev S32x2048 : Shape := ⟨2, ![32, 2048]⟩
abbrev S32x2048x1 : Shape := ⟨3, ![32, 2048, 1]⟩
abbrev S32x3072x768 : Shape := ⟨3, ![32, 3072, 768]⟩

abbrev nBuf : Space → Nat
  | .hbm => 35
  | .vmem => 0
  | .smem => 0
  | _ => 0

abbrev bufTy : (tb : Table) → Fin (tcTables nBuf tb) → BufTy
  | .hbm, ⟨0, _⟩ => ⟨S32x1024x768, .f32⟩
  | .hbm, ⟨1, _⟩ => ⟨S32x2048x768, .f32⟩
  | .hbm, ⟨2, _⟩ => ⟨S32x1024x2048, .f32⟩
  | .hbm, ⟨3, _⟩ => ⟨S_, .f32⟩
  | .hbm, ⟨4, _⟩ => ⟨S32x1024, .f32⟩
  | .hbm, ⟨5, _⟩ => ⟨S_, .f32⟩
  | .hbm, ⟨6, _⟩ => ⟨S32x1024, .f32⟩
  | .hbm, ⟨7, _⟩ => ⟨S32x1024, .f32⟩
  | .hbm, ⟨8, _⟩ => ⟨S32x1024x1, .f32⟩
  | .hbm, ⟨9, _⟩ => ⟨S32x1024x2048, .f32⟩
  | .hbm, ⟨10, _⟩ => ⟨S32x1024x2048, .f32⟩
  | .hbm, ⟨11, _⟩ => ⟨S32x1024x2048, .f32⟩
  | .hbm, ⟨12, _⟩ => ⟨S_, .f32⟩
  | .hbm, ⟨13, _⟩ => ⟨S32x1024, .f32⟩
  | .hbm, ⟨14, _⟩ => ⟨S32x1024x1, .f32⟩
  | .hbm, ⟨15, _⟩ => ⟨S32x1024x2048, .f32⟩
  | .hbm, ⟨16, _⟩ => ⟨S32x1024x2048, .f32⟩
  | .hbm, ⟨17, _⟩ => ⟨S32x1024x768, .f32⟩
  | .hbm, ⟨18, _⟩ => ⟨S32x2048x1024, .f32⟩
  | .hbm, ⟨19, _⟩ => ⟨S_, .f32⟩
  | .hbm, ⟨20, _⟩ => ⟨S32x2048, .f32⟩
  | .hbm, ⟨21, _⟩ => ⟨S_, .f32⟩
  | .hbm, ⟨22, _⟩ => ⟨S32x2048, .f32⟩
  | .hbm, ⟨23, _⟩ => ⟨S32x2048, .f32⟩
  | .hbm, ⟨24, _⟩ => ⟨S32x2048x1, .f32⟩
  | .hbm, ⟨25, _⟩ => ⟨S32x2048x1024, .f32⟩
  | .hbm, ⟨26, _⟩ => ⟨S32x2048x1024, .f32⟩
  | .hbm, ⟨27, _⟩ => ⟨S32x2048x1024, .f32⟩
  | .hbm, ⟨28, _⟩ => ⟨S_, .f32⟩
  | .hbm, ⟨29, _⟩ => ⟨S32x2048, .f32⟩
  | .hbm, ⟨30, _⟩ => ⟨S32x2048x1, .f32⟩
  | .hbm, ⟨31, _⟩ => ⟨S32x2048x1024, .f32⟩
  | .hbm, ⟨32, _⟩ => ⟨S32x2048x1024, .f32⟩
  | .hbm, ⟨33, _⟩ => ⟨S32x2048x768, .f32⟩
  | .hbm, ⟨34, _⟩ => ⟨S32x3072x768, .f32⟩
  | _, _ => ⟨S32x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]

class Facts₀ : Prop where
  reducesTo_S32x1024x2048_S32x1024_d2 : S32x1024x2048.ReducesTo [2] S32x1024
  h_S_ : 0 < S_.numel
  bcast_S_S32x1024 : S_.BroadcastsInDim S32x1024 (![] : Fin 0 → Fin S32x1024.rank)
  bcast_S32x1024_S32x1024x1_0_1 : S32x1024.BroadcastsInDim S32x1024x1 (![0, 1] : Fin 2 → Fin S32x1024x1.rank)
  bcast_S32x1024x1_S32x1024x2048_0_1_2 : S32x1024x1.BroadcastsInDim S32x1024x2048 (![0, 1, 2] : Fin 3 → Fin S32x1024x2048.rank)
  transposes_S32x1024x2048_S32x2048x1024_0_2_1 : S32x1024x2048.Transposes [0, 2, 1] S32x2048x1024
  reducesTo_S32x2048x1024_S32x2048_d2 : S32x2048x1024.ReducesTo [2] S32x2048
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  bcast_S32x2048x1_S32x2048x1024_0_1_2 : S32x2048x1.BroadcastsInDim S32x2048x1024 (![0, 1, 2] : Fin 3 → Fin S32x2048x1024.rank)
  concatenates_S32x1024x768_S32x2048x768_S32x3072x768_d1 : Shape.Concatenates [S32x1024x768, S32x2048x768] S32x3072x768 1
  dot_S32x1024x768_S32x2048x768_S32x1024x2048_2_2_1_1_0_0_wf : DotDims.WF S32x1024x768 S32x2048x768 S32x1024x2048 [2] [2] [1] [1] [0] [0]
  dot_S32x1024x2048_S32x2048x768_S32x1024x768_2_1_1_2_0_0_wf : DotDims.WF S32x1024x2048 S32x2048x768 S32x1024x768 [2] [1] [1] [2] [0] [0]
  dot_S32x2048x1024_S32x1024x768_S32x2048x768_2_1_1_2_0_0_wf : DotDims.WF S32x2048x1024 S32x1024x768 S32x2048x768 [2] [1] [1] [2] [0] [0]

variable [Facts₀]

def dot_S32x1024x768_S32x2048x768_S32x1024x2048_2_2_1_1_0_0 : DotDims S32x1024x768 S32x2048x768 S32x1024x2048 where
  lhsContracting := [2]
  rhsContracting := [2]
  lhsNonContracting := [1]
  rhsNonContracting := [1]
  lhsBatch := [0]
  rhsBatch := [0]
  wf := dot_S32x1024x768_S32x2048x768_S32x1024x2048_2_2_1_1_0_0_wf
def dot_S32x1024x2048_S32x2048x768_S32x1024x768_2_1_1_2_0_0 : DotDims S32x1024x2048 S32x2048x768 S32x1024x768 where
  lhsContracting := [2]
  rhsContracting := [1]
  lhsNonContracting := [1]
  rhsNonContracting := [2]
  lhsBatch := [0]
  rhsBatch := [0]
  wf := dot_S32x1024x2048_S32x2048x768_S32x1024x768_2_1_1_2_0_0_wf
def dot_S32x2048x1024_S32x1024x768_S32x2048x768_2_1_1_2_0_0 : DotDims S32x2048x1024 S32x1024x768 S32x2048x768 where
  lhsContracting := [2]
  rhsContracting := [1]
  lhsNonContracting := [1]
  rhsNonContracting := [2]
  lhsBatch := [0]
  rhsBatch := [0]
  wf := dot_S32x2048x1024_S32x1024x768_S32x2048x768_2_1_1_2_0_0_wf

class Facts : Prop extends Facts₀ where

variable [Facts]
-- ==== Proof.KernelTrips.lean ====
import proofs.«152790_j51256139710851_2_alg».proof.Proof.Gen.Kernel.Loops
import Idealize.ShloMosaic.Lib.Pipeline.Value
import Idealize.ShloMosaic.Lib.Pipeline.Frame

/-
  The pieces the two counted loops of the kernel body store.

  Trip k of the first loop reads rows 128k .. 128k+127 of the global block, the whole local block and the whole
  copy of the local block, and stores two things: into the similarity scratch, at rows 128k .. 128k+127, the
  products of those global rows with all local rows; into the output block, at the same rows, those rows'
  softmax over the local rows applied to the local block. Trip j of the second loop reads columns
  128j .. 128j+127 of the similarity scratch and the whole copy of the global block, and stores into the output
  block, at rows 1024+128j .. 1024+128j+127, those columns' softmax over the global rows applied to the global block.
  Each trip's stores are read once from the trip's run; the lists accumulated over the trips are then
  described by membership: a piece is in the list after n trips exactly when it is the piece of a trip below n.
-/

set_option maxRecDepth 16384

noncomputable section

namespace Cert.Kernel.Trips

open Idealize.ShloMosaic Idealize.ShloMosaic.TcCoe Idealize.SL.Sem
open Cert.Kernel Cert.Kernel.Gen

/-- A list grown one block per step, newest first: after n steps it holds exactly the blocks of the steps below n. -/
theorem mem_grown {α : Type} (N : ℕ) (f : ℕ → List α) (g : (k : ℕ) → k < N → List α) (h0 : f 0 = [])
    (hs : ∀ (k : ℕ) (h : k < N), f (k + 1) = g k h ++ f k) (p : α) :
    ∀ n, n ≤ N → (p ∈ f n ↔ ∃ (k : ℕ) (h : k < N), k < n ∧ p ∈ g k h)
  | 0, _ => by rw [h0]; exact ⟨fun h => absurd h List.not_mem_nil, fun ⟨_, _, h, _⟩ => absurd h (Nat.not_lt_zero _)⟩
  | n + 1, hn => by
    have hlt : n < N := hn
    rw [hs n hlt, List.mem_append, mem_grown N f g h0 hs p n (Nat.le_of_lt hlt)]
    constructor
    · rintro (h | ⟨k, hk, hkn, h⟩)
      · exact ⟨n, hlt, Nat.lt_succ_self n, h⟩
      · exact ⟨k, hk, Nat.lt_succ_of_lt hkn, h⟩
    · rintro ⟨k, hk, hkn, h⟩
      rcases Nat.lt_succ_iff_lt_or_eq.mp hkn with h' | rfl
      · exact Or.inr ⟨k, hk, h', h⟩
      · exact Or.inl h

/-- The two loops make 8 and 16 trips. -/
theorem trips1 : k0_t1_loop.trips = 8 := by decide +kernel
theorem trips2 : k0_t2_loop.trips = 16 := by decide +kernel

variable {F : FTy → Type} [FloatOps F]

/-! ## The first loop -/

/-- What trip k of the first loop stores into the output block. -/
abbrev outPiece1 (arg1 : Memref sig .tc .vmem S1x1024x768 .f32) (arg2 : Memref sig .tc .vmem S1x2048x768 .f32) (arg6 : Memref sig .tc .vmem S2048x768 .bf16)
    (X1 : BufTy.Contents (Elt F) arg1.view.ty) (X2 : BufTy.Contents (Elt F) arg2.view.ty) (X6 : BufTy.Contents (Elt F) arg6.view.ty)
    (k : Fin k0_t1_loop.trips) : View.Piece (Elt F) S1x3072x768 .f32 :=
  ⟨Rect.unit (s := S1x3072x768) (k0_off3 k) S1x128x768.size (k0_off3_inb k),
    k0_pay5 (arg1.view.readAt (Elt F) (Rect.unit (s := S1x1024x768) (k0_off1 k) S1x128x768.size (k0_off1_inb k)).toLoadRect X1)
      (arg2.view.readAt (Elt F) (Rect.unit (s := S1x2048x768) ![0, 0, 0] S1x2048x768.size inb_S1x2048x768_S1x2048x768_0_0_0).toLoadRect X2)
      (arg6.view.readAt (Elt F) (Rect.unit (s := S2048x768) ![0, 0] S2048x768.size inb_S2048x768_S2048x768_0_0).toLoadRect X6)⟩

/-- What trip k of the first loop stores into the similarity scratch. -/
abbrev simPiece (arg1 : Memref sig .tc .vmem S1x1024x768 .f32) (arg2 : Memref sig .tc .vmem S1x2048x768 .f32)
    (X1 : BufTy.Contents (Elt F) arg1.view.ty) (X2 : BufTy.Contents (Elt F) arg2.view.ty)
    (k : Fin k0_t1_loop.trips) : View.Piece (Elt F) S1024x2048 .f32 :=
  ⟨Rect.unit (s := S1024x2048) (k0_off2 k) S128x2048.size (k0_off2_inb k),
    k0_pay4 (arg1.view.readAt (Elt F) (Rect.unit (s := S1x1024x768) (k0_off1 k) S1x128x768.size (k0_off1_inb k)).toLoadRect X1)
      (arg2.view.readAt (Elt F) (Rect.unit (s := S1x2048x768) ![0, 0, 0] S1x2048x768.size inb_S1x2048x768_S1x2048x768_0_0_0).toLoadRect X2)⟩

unseal trip_k0_t1 in
/-- Trip k's stores into the output block: the one piece above. -/
theorem trip1_out (𝒱 : Variants) (c : Dev nD) (bd : Option 𝒱.V) (i : grid0.Coords) (arg1 : Memref sig .tc .vmem S1x1024x768 .f32) (harg1 : arg1.IsWhole) (arg2 : Memref sig .tc .vmem S1x2048x768 .f32) (harg2 : arg2.IsWhole) (arg3 : Memref sig .tc .vmem S1x3072x768 .f32) (harg3 : arg3.IsWhole) (arg4 : Memref sig .tc .vmem S1024x2048 .f32) (harg4 : arg4.IsWhole) (arg5 : Memref sig .tc .vmem S1024x768 .bf16) (harg5 : arg5.IsWhole) (arg6 : Memref sig .tc .vmem S2048x768 .bf16) (harg6 : arg6.IsWhole) (X1 : BufTy.Contents (Elt F) arg1.view.ty) (X2 : BufTy.Contents (Elt F) arg2.view.ty) (X6 : BufTy.Contents (Elt F) arg6.view.ty) (k : Fin k0_t1_loop.trips) :
    (trip_k0_t1 (F := F) 𝒱 c bd i arg1 harg1 arg2 harg2 arg3 harg3 arg4 harg4 arg5 harg5 arg6 harg6 X1 X2 X6 k).1 = [outPiece1 arg1 arg2 arg6 X1 X2 X6 k] := rfl

unseal trip_k0_t1 in
/-- Trip k's stores into the similarity scratch: the one piece above. -/
theorem trip1_sim (𝒱 : Variants) (c : Dev nD) (bd : Option 𝒱.V) (i : grid0.Coords) (arg1 : Memref sig .tc .vmem S1x1024x768 .f32) (harg1 : arg1.IsWhole) (arg2 : Memref sig .tc .vmem S1x2048x768 .f32) (harg2 : arg2.IsWhole) (arg3 : Memref sig .tc .vmem S1x3072x768 .f32) (harg3 : arg3.IsWhole) (arg4 : Memref sig .tc .vmem S1024x2048 .f32) (harg4 : arg4.IsWhole) (arg5 : Memref sig .tc .vmem S1024x768 .bf16) (harg5 : arg5.IsWhole) (arg6 : Memref sig .tc .vmem S2048x768 .bf16) (harg6 : arg6.IsWhole) (X1 : BufTy.Contents (Elt F) arg1.view.ty) (X2 : BufTy.Contents (Elt F) arg2.view.ty) (X6 : BufTy.Contents (Elt F) arg6.view.ty) (k : Fin k0_t1_loop.trips) :
    (trip_k0_t1 (F := F) 𝒱 c bd i arg1 harg1 arg2 harg2 arg3 harg3 arg4 harg4 arg5 harg5 arg6 harg6 X1 X2 X6 k).2.1 = [simPiece arg1 arg2 X1 X2 k] := rfl

/-! ## The second loop -/

/-- What trip j of the second loop stores into the output block. -/
abbrev outPiece2 (arg4 : Memref sig .tc .vmem S1024x2048 .f32) (arg5 : Memref sig .tc .vmem S1024x768 .bf16)
    (X4 : BufTy.Contents (Elt F) arg4.view.ty) (X5 : BufTy.Contents (Elt F) arg5.view.ty)
    (j : Fin k0_t2_loop.trips) : View.Piece (Elt F) S1x3072x768 .f32 :=
  ⟨Rect.unit (s := S1x3072x768) (k0_off5 j) S1x128x768.size (k0_off5_inb j),
    k0_pay6 (arg4.view.readAt (Elt F) (Rect.unit (s := S1024x2048) (k0_off4 j) S1024x128.size (k0_off4_inb j)).toLoadRect X4)
      (arg5.view.readAt (Elt F) (Rect.unit (s := S1024x768) ![0, 0] S1024x768.size inb_S1024x768_S1024x768_0_0).toLoadRect X5)⟩

unseal trip_k0_t2 in
/-- Trip j's stores into the output block: the one piece above. -/
theorem trip2_out (𝒱 : Variants) (c : Dev nD) (bd : Option 𝒱.V) (i : grid0.Coords) (arg1 : Memref sig .tc .vmem S1x1024x768 .f32) (harg1 : arg1.IsWhole) (arg2 : Memref sig .tc .vmem S1x2048x768 .f32) (harg2 : arg2.IsWhole) (arg3 : Memref sig .tc .vmem S1x3072x768 .f32) (harg3 : arg3.IsWhole) (arg4 : Memref sig .tc .vmem S1024x2048 .f32) (harg4 : arg4.IsWhole) (arg5 : Memref sig .tc .vmem S1024x768 .bf16) (harg5 : arg5.IsWhole) (arg6 : Memref sig .tc .vmem S2048x768 .bf16) (harg6 : arg6.IsWhole) (X4 : BufTy.Contents (Elt F) arg4.view.ty) (X5 : BufTy.Contents (Elt F) arg5.view.ty) (j : Fin k0_t2_loop.trips) :
    tripL_k0_t2 (F := F) 𝒱 c bd i arg1 harg1 arg2 harg2 arg3 harg3 arg4 harg4 arg5 harg5 arg6 harg6 X4 X5 j = [outPiece2 arg4 arg5 X4 X5 j] := rfl

/-! ## The lists accumulated over the trips -/

/-- After n trips of the first loop the output block's list holds exactly the pieces of the trips below n. -/
theorem mem_pb1_out (𝒱 : Variants) (c : Dev nD) (bd : Option 𝒱.V) (i : grid0.Coords) (arg1 : Memref sig .tc .vmem S1x1024x768 .f32) (harg1 : arg1.IsWhole) (arg2 : Memref sig .tc .vmem S1x2048x768 .f32) (harg2 : arg2.IsWhole) (arg3 : Memref sig .tc .vmem S1x3072x768 .f32) (harg3 : arg3.IsWhole) (arg4 : Memref sig .tc .vmem S1024x2048 .f32) (harg4 : arg4.IsWhole) (arg5 : Memref sig .tc .vmem S1024x768 .bf16) (harg5 : arg5.IsWhole) (arg6 : Memref sig .tc .vmem S2048x768 .bf16) (harg6 : arg6.IsWhole) (X1 : BufTy.Contents (Elt F) arg1.view.ty) (X2 : BufTy.Contents (Elt F) arg2.view.ty) (X6 : BufTy.Contents (Elt F) arg6.view.ty) (p : View.Piece (Elt F) S1x3072x768 .f32) (n : ℕ) (hn : n ≤ k0_t1_loop.trips) :
    p ∈ (pb_k0_t1 (F := F) 𝒱 c bd i arg1 harg1 arg2 harg2 arg3 harg3 arg4 harg4 arg5 harg5 arg6 harg6 X1 X2 X6 n).1
      ↔ ∃ (k : ℕ) (h : k < k0_t1_loop.trips), k < n ∧ p = outPiece1 arg1 arg2 arg6 X1 X2 X6 ⟨k, h⟩ := by
  rw [mem_grown k0_t1_loop.trips (fun n => (pb_k0_t1 (F := F) 𝒱 c bd i arg1 harg1 arg2 harg2 arg3 harg3 arg4 harg4 arg5 harg5 arg6 harg6 X1 X2 X6 n).1)
    (fun k h => (tripL_k0_t1 (F := F) 𝒱 c bd i arg1 harg1 arg2 harg2 arg3 harg3 arg4 harg4 arg5 harg5 arg6 harg6 X1 X2 X6 ⟨k, h⟩).1) rfl
    (fun k h => congrArg Prod.fst (pb_k0_t1_succ (F := F) 𝒱 c bd i arg1 harg1 arg2 harg2 arg3 harg3 arg4 harg4 arg5 harg5 arg6 harg6 X1 X2 X6 ⟨k, h⟩)) p n hn]
  simp only [trip1_out, List.mem_singleton]

/-- After n trips of the first loop the similarity scratch's list holds exactly the pieces of the trips below n. -/
theorem mem_pb1_sim (𝒱 : Variants) (c : Dev nD) (bd : Option 𝒱.V) (i : grid0.Coords) (arg1 : Memref sig .tc .vmem S1x1024x768 .f32) (harg1 : arg1.IsWhole) (arg2 : Memref sig .tc .vmem S1x2048x768 .f32) (harg2 : arg2.IsWhole) (arg3 : Memref sig .tc .vmem S1x3072x768 .f32) (harg3 : arg3.IsWhole) (arg4 : Memref sig .tc .vmem S1024x2048 .f32) (harg4 : arg4.IsWhole) (arg5 : Memref sig .tc .vmem S1024x768 .bf16) (harg5 : arg5.IsWhole) (arg6 : Memref sig .tc .vmem S2048x768 .bf16) (harg6 : arg6.IsWhole) (X1 : BufTy.Contents (Elt F) arg1.view.ty) (X2 : BufTy.Contents (Elt F) arg2.view.ty) (X6 : BufTy.Contents (Elt F) arg6.view.ty) (p : View.Piece (Elt F) S1024x2048 .f32) (n : ℕ) (hn : n ≤ k0_t1_loop.trips) :
    p ∈ (pb_k0_t1 (F := F) 𝒱 c bd i arg1 harg1 arg2 harg2 arg3 harg3 arg4 harg4 arg5 harg5 arg6 harg6 X1 X2 X6 n).2
      ↔ ∃ (k : ℕ) (h : k < k0_t1_loop.trips), k < n ∧ p = simPiece arg1 arg2 X1 X2 ⟨k, h⟩ := by
  rw [mem_grown k0_t1_loop.trips (fun n => (pb_k0_t1 (F := F) 𝒱 c bd i arg1 harg1 arg2 harg2 arg3 harg3 arg4 harg4 arg5 harg5 arg6 harg6 X1 X2 X6 n).2)
    (fun k h => (tripL_k0_t1 (F := F) 𝒱 c bd i arg1 harg1 arg2 harg2 arg3 harg3 arg4 harg4 arg5 harg5 arg6 harg6 X1 X2 X6 ⟨k, h⟩).2) rfl
    (fun k h => congrArg Prod.snd (pb_k0_t1_succ (F := F) 𝒱 c bd i arg1 harg1 arg2 harg2 arg3 harg3 arg4 harg4 arg5 harg5 arg6 harg6 X1 X2 X6 ⟨k, h⟩)) p n hn]
  simp only [trip1_sim, List.mem_singleton]

/-- After n trips of the second loop the output block's list holds exactly the pieces of the trips below n. -/
theorem mem_pb2_out (𝒱 : Variants) (c : Dev nD) (bd : Option 𝒱.V) (i : grid0.Coords) (arg1 : Memref sig .tc .vmem S1x1024x768 .f32) (harg1 : arg1.IsWhole) (arg2 : Memref sig .tc .vmem S1x2048x768 .f32) (harg2 : arg2.IsWhole) (arg3 : Memref sig .tc .vmem S1x3072x768 .f32) (harg3 : arg3.IsWhole) (arg4 : Memref sig .tc .vmem S1024x2048 .f32) (harg4 : arg4.IsWhole) (arg5 : Memref sig .tc .vmem S1024x768 .bf16) (harg5 : arg5.IsWhole) (arg6 : Memref sig .tc .vmem S2048x768 .bf16) (harg6 : arg6.IsWhole) (X4 : BufTy.Contents (Elt F) arg4.view.ty) (X5 : BufTy.Contents (Elt F) arg5.view.ty) (p : View.Piece (Elt F) S1x3072x768 .f32) (n : ℕ) (hn : n ≤ k0_t2_loop.trips) :
    p ∈ pb_k0_t2 (F := F) 𝒱 c bd i arg1 harg1 arg2 harg2 arg3 harg3 arg4 harg4 arg5 harg5 arg6 harg6 X4 X5 n
      ↔ ∃ (j : ℕ) (h : j < k0_t2_loop.trips), j < n ∧ p = outPiece2 arg4 arg5 X4 X5 ⟨j, h⟩ := by
  rw [mem_grown k0_t2_loop.trips (fun n => pb_k0_t2 (F := F) 𝒱 c bd i arg1 harg1 arg2 harg2 arg3 harg3 arg4 harg4 arg5 harg5 arg6 harg6 X4 X5 n)
    (fun j h => tripL_k0_t2 (F := F) 𝒱 c bd i arg1 harg1 arg2 harg2 arg3 harg3 arg4 harg4 arg5 harg5 arg6 harg6 X4 X5 ⟨j, h⟩) rfl
    (fun j h => pb_k0_t2_succ (F := F) 𝒱 c bd i arg1 harg1 arg2 harg2 arg3 harg3 arg4 harg4 arg5 harg5 arg6 harg6 X4 X5 ⟨j, h⟩) p n hn]
  simp only [trip2_out, List.mem_singleton]

/-! ## The first loop fills the similarity scratch -/

/-- Every entry (q, c) of the 1024 x 2048 scratch is under the store of trip q / 128: rows 128k .. 128k+127, all columns. -/
theorem sim_cover (𝒱 : Variants) (c : Dev nD) (bd : Option 𝒱.V) (i : grid0.Coords) (arg1 : Memref sig .tc .vmem S1x1024x768 .f32) (harg1 : arg1.IsWhole) (arg2 : Memref sig .tc .vmem S1x2048x768 .f32) (harg2 : arg2.IsWhole) (arg3 : Memref sig .tc .vmem S1x3072x768 .f32) (harg3 : arg3.IsWhole) (arg4 : Memref sig .tc .vmem S1024x2048 .f32) (harg4 : arg4.IsWhole) (arg5 : Memref sig .tc .vmem S1024x768 .bf16) (harg5 : arg5.IsWhole) (arg6 : Memref sig .tc .vmem S2048x768 .bf16) (harg6 : arg6.IsWhole) (X1 : BufTy.Contents (Elt F) arg1.view.ty) (X2 : BufTy.Contents (Elt F) arg2.view.ty) (X6 : BufTy.Contents (Elt F) arg6.view.ty) (y : S1024x2048.Idx) :
    ∃ p ∈ (pb_k0_t1 (F := F) 𝒱 c bd i arg1 harg1 arg2 harg2 arg3 harg3 arg4 harg4 arg5 harg5 arg6 harg6 X1 X2 X6 k0_t1_loop.trips).2, y ∈ p.1.set := by
  have h0 : (y 0).val < 1024 := (y 0).isLt
  have h1 : (y 1).val < 2048 := (y 1).isLt
  have hk : (y 0).val / 128 < k0_t1_loop.trips := by rw [trips1]; omega
  refine ⟨simPiece arg1 arg2 X1 X2 ⟨(y 0).val / 128, hk⟩,
    (mem_pb1_sim 𝒱 c bd i arg1 harg1 arg2 harg2 arg3 harg3 arg4 harg4 arg5 harg5 arg6 harg6 X1 X2 X6 _ _ (Nat.le_refl _)).mpr ⟨(y 0).val / 128, hk, hk, rfl⟩, ?_⟩
  show y ∈ (Rect.unit (s := S1024x2048) (k0_off2 ⟨(y 0).val / 128, hk⟩) S128x2048.size (k0_off2_inb _)).set
  rw [Rect.mem_set_unit, k0_off2_eq]
  intro a
  match a with
  | ⟨0, _⟩ => show 128 * ((y 0).val / 128) ≤ (y 0).val ∧ (y 0).val < 128 * ((y 0).val / 128) + 128; omega
  | ⟨1, _⟩ => show 0 ≤ (y 1).val ∧ (y 1).val < 0 + 2048; omega

/-- So what the first loop leaves in the scratch does not depend on what the scratch held before: over any prior
    contents f its stores leave what they leave over the view's junk (the scratch memref is the whole buffer, so
    contents that read the same are the same). -/
theorem sim_writes_junk (𝒱 : Variants) (c : Dev nD) (bd : Option 𝒱.V) (i : grid0.Coords) (arg1 : Memref sig .tc .vmem S1x1024x768 .f32) (harg1 : arg1.IsWhole) (arg2 : Memref sig .tc .vmem S1x2048x768 .f32) (harg2 : arg2.IsWhole) (arg3 : Memref sig .tc .vmem S1x3072x768 .f32) (harg3 : arg3.IsWhole) (arg4 : Memref sig .tc .vmem S1024x2048 .f32) (harg4 : arg4.IsWhole) (arg5 : Memref sig .tc .vmem S1024x768 .bf16) (harg5 : arg5.IsWhole) (arg6 : Memref sig .tc .vmem S2048x768 .bf16) (harg6 : arg6.IsWhole) (X1 : BufTy.Contents (Elt F) arg1.view.ty) (X2 : BufTy.Contents (Elt F) arg2.view.ty) (X6 : BufTy.Contents (Elt F) arg6.view.ty) (f : BufTy.Contents (Elt F) arg4.view.ty) (n : ℕ) (hn : n = k0_t1_loop.trips) :
    arg4.view.writes (Elt F) f (pb_k0_t1 (F := F) 𝒱 c bd i arg1 harg1 arg2 harg2 arg3 harg3 arg4 harg4 arg5 harg5 arg6 harg6 X1 X2 X6 n).2
      = arg4.view.writes (Elt F) arg4.view.junk (pb_k0_t1 (F := F) 𝒱 c bd i arg1 harg1 arg2 harg2 arg3 harg3 arg4 harg4 arg5 harg5 arg6 harg6 X1 X2 X6 n).2 := by
  subst hn
  exact harg4.read_bijective.1 (View.read_writes_of_cover arg4.view f arg4.view arg4.view.junk _
    (sim_cover 𝒱 c bd i arg1 harg1 arg2 harg2 arg3 harg3 arg4 harg4 arg5 harg5 arg6 harg6 X1 X2 X6))

end Cert.Kernel.Trips

end
-- ==== Proof.Trips.lean ====
import proofs.«152790_j51256139710851_2_alg».proof.Proof.Gen.KernelIdeal.Loops
import Idealize.ShloMosaic.Lib.Pipeline.Value
import Idealize.ShloMosaic.Lib.Pipeline.Frame

/-
  The pieces the two counted loops of the kernel body store.

  Trip k of the first loop reads rows 128k .. 128k+127 of the global block, the whole local block and the whole
  copy of the local block, and stores two things: into the similarity scratch, at rows 128k .. 128k+127, the
  products of those global rows with all local rows; into the output block, at the same rows, those rows'
  softmax over the local rows applied to the local block. Trip j of the second loop reads columns
  128j .. 128j+127 of the similarity scratch and the whole copy of the global block, and stores into the output
  block, at rows 1024+128j .. 1024+128j+127, those columns' softmax over the global rows applied to the global block.
  Each trip's stores are read once from the trip's run; the lists accumulated over the trips are then
  described by membership: a piece is in the list after n trips exactly when it is the piece of a trip below n.
-/

set_option maxRecDepth 16384

noncomputable section

namespace Cert.KernelIdeal.Trips

open Idealize.ShloMosaic Idealize.ShloMosaic.TcCoe Idealize.SL.Sem
open Cert.KernelIdeal Cert.KernelIdeal.Gen

/-- A list grown one block per step, newest first: after n steps it holds exactly the blocks of the steps below n. -/
theorem mem_grown {α : Type} (N : ℕ) (f : ℕ → List α) (g : (k : ℕ) → k < N → List α) (h0 : f 0 = [])
    (hs : ∀ (k : ℕ) (h : k < N), f (k + 1) = g k h ++ f k) (p : α) :
    ∀ n, n ≤ N → (p ∈ f n ↔ ∃ (k : ℕ) (h : k < N), k < n ∧ p ∈ g k h)
  | 0, _ => by rw [h0]; exact ⟨fun h => absurd h List.not_mem_nil, fun ⟨_, _, h, _⟩ => absurd h (Nat.not_lt_zero _)⟩
  | n + 1, hn => by
    have hlt : n < N := hn
    rw [hs n hlt, List.mem_append, mem_grown N f g h0 hs p n (Nat.le_of_lt hlt)]
    constructor
    · rintro (h | ⟨k, hk, hkn, h⟩)
      · exact ⟨n, hlt, Nat.lt_succ_self n, h⟩
      · exact ⟨k, hk, Nat.lt_succ_of_lt hkn, h⟩
    · rintro ⟨k, hk, hkn, h⟩
      rcases Nat.lt_succ_iff_lt_or_eq.mp hkn with h' | rfl
      · exact Or.inr ⟨k, hk, h', h⟩
      · exact Or.inl h

/-- The two loops make 8 and 16 trips. -/
theorem trips1 : k0_t1_loop.trips = 8 := by decide +kernel
theorem trips2 : k0_t2_loop.trips = 16 := by decide +kernel

variable {F : FTy → Type} [FloatOps F]

/-! ## The first loop -/

/-- What trip k of the first loop stores into the output block. -/
abbrev outPiece1 (arg1 : Memref sig .tc .vmem S1x1024x768 .f32) (arg2 : Memref sig .tc .vmem S1x2048x768 .f32) (arg6 : Memref sig .tc .vmem S2048x768 .bf16)
    (X1 : BufTy.Contents (Elt F) arg1.view.ty) (X2 : BufTy.Contents (Elt F) arg2.view.ty) (X6 : BufTy.Contents (Elt F) arg6.view.ty)
    (k : Fin k0_t1_loop.trips) : View.Piece (Elt F) S1x3072x768 .f32 :=
  ⟨Rect.unit (s := S1x3072x768) (k0_off3 k) S1x128x768.size (k0_off3_inb k),
    k0_pay5 (arg1.view.readAt (Elt F) (Rect.unit (s := S1x1024x768) (k0_off1 k) S1x128x768.size (k0_off1_inb k)).toLoadRect X1)
      (arg2.view.readAt (Elt F) (Rect.unit (s := S1x2048x768) ![0, 0, 0] S1x2048x768.size inb_S1x2048x768_S1x2048x768_0_0_0).toLoadRect X2)
      (arg6.view.readAt (Elt F) (Rect.unit (s := S2048x768) ![0, 0] S2048x768.size inb_S2048x768_S2048x768_0_0).toLoadRect X6)⟩

/-- What trip k of the first loop stores into the similarity scratch. -/
abbrev simPiece (arg1 : Memref sig .tc .vmem S1x1024x768 .f32) (arg2 : Memref sig .tc .vmem S1x2048x768 .f32)
    (X1 : BufTy.Contents (Elt F) arg1.view.ty) (X2 : BufTy.Contents (Elt F) arg2.view.ty)
    (k : Fin k0_t1_loop.trips) : View.Piece (Elt F) S1024x2048 .f32 :=
  ⟨Rect.unit (s := S1024x2048) (k0_off2 k) S128x2048.size (k0_off2_inb k),
    k0_pay4 (arg1.view.readAt (Elt F) (Rect.unit (s := S1x1024x768) (k0_off1 k) S1x128x768.size (k0_off1_inb k)).toLoadRect X1)
      (arg2.view.readAt (Elt F) (Rect.unit (s := S1x2048x768) ![0, 0, 0] S1x2048x768.size inb_S1x2048x768_S1x2048x768_0_0_0).toLoadRect X2)⟩

unseal trip_k0_t1 in
/-- Trip k's stores into the output block: the one piece above. -/
theorem trip1_out (𝒱 : Variants) (c : Dev nD) (bd : Option 𝒱.V) (i : grid0.Coords) (arg1 : Memref sig .tc .vmem S1x1024x768 .f32) (harg1 : arg1.IsWhole) (arg2 : Memref sig .tc .vmem S1x2048x768 .f32) (harg2 : arg2.IsWhole) (arg3 : Memref sig .tc .vmem S1x3072x768 .f32) (harg3 : arg3.IsWhole) (arg4 : Memref sig .tc .vmem S1024x2048 .f32) (harg4 : arg4.IsWhole) (arg5 : Memref sig .tc .vmem S1024x768 .bf16) (harg5 : arg5.IsWhole) (arg6 : Memref sig .tc .vmem S2048x768 .bf16) (harg6 : arg6.IsWhole) (X1 : BufTy.Contents (Elt F) arg1.view.ty) (X2 : BufTy.Contents (Elt F) arg2.view.ty) (X6 : BufTy.Contents (Elt F) arg6.view.ty) (k : Fin k0_t1_loop.trips) :
    (trip_k0_t1 (F := F) 𝒱 c bd i arg1 harg1 arg2 harg2 arg3 harg3 arg4 harg4 arg5 harg5 arg6 harg6 X1 X2 X6 k).1 = [outPiece1 arg1 arg2 arg6 X1 X2 X6 k] := rfl

unseal trip_k0_t1 in
/-- Trip k's stores into the similarity scratch: the one piece above. -/
theorem trip1_sim (𝒱 : Variants) (c : Dev nD) (bd : Option 𝒱.V) (i : grid0.Coords) (arg1 : Memref sig .tc .vmem S1x1024x768 .f32) (harg1 : arg1.IsWhole) (arg2 : Memref sig .tc .vmem S1x2048x768 .f32) (harg2 : arg2.IsWhole) (arg3 : Memref sig .tc .vmem S1x3072x768 .f32) (harg3 : arg3.IsWhole) (arg4 : Memref sig .tc .vmem S1024x2048 .f32) (harg4 : arg4.IsWhole) (arg5 : Memref sig .tc .vmem S1024x768 .bf16) (harg5 : arg5.IsWhole) (arg6 : Memref sig .tc .vmem S2048x768 .bf16) (harg6 : arg6.IsWhole) (X1 : BufTy.Contents (Elt F) arg1.view.ty) (X2 : BufTy.Contents (Elt F) arg2.view.ty) (X6 : BufTy.Contents (Elt F) arg6.view.ty) (k : Fin k0_t1_loop.trips) :
    (trip_k0_t1 (F := F) 𝒱 c bd i arg1 harg1 arg2 harg2 arg3 harg3 arg4 harg4 arg5 harg5 arg6 harg6 X1 X2 X6 k).2.1 = [simPiece arg1 arg2 X1 X2 k] := rfl

/-! ## The second loop -/

/-- What trip j of the second loop stores into the output block. -/
abbrev outPiece2 (arg4 : Memref sig .tc .vmem S1024x2048 .f32) (arg5 : Memref sig .tc .vmem S1024x768 .bf16)
    (X4 : BufTy.Contents (Elt F) arg4.view.ty) (X5 : BufTy.Contents (Elt F) arg5.view.ty)
    (j : Fin k0_t2_loop.trips) : View.Piece (Elt F) S1x3072x768 .f32 :=
  ⟨Rect.unit (s := S1x3072x768) (k0_off5 j) S1x128x768.size (k0_off5_inb j),
    k0_pay6 (arg4.view.readAt (Elt F) (Rect.unit (s := S1024x2048) (k0_off4 j) S1024x128.size (k0_off4_inb j)).toLoadRect X4)
      (arg5.view.readAt (Elt F) (Rect.unit (s := S1024x768) ![0, 0] S1024x768.size inb_S1024x768_S1024x768_0_0).toLoadRect X5)⟩

unseal trip_k0_t2 in
/-- Trip j's stores into the output block: the one piece above. -/
theorem trip2_out (𝒱 : Variants) (c : Dev nD) (bd : Option 𝒱.V) (i : grid0.Coords) (arg1 : Memref sig .tc .vmem S1x1024x768 .f32) (harg1 : arg1.IsWhole) (arg2 : Memref sig .tc .vmem S1x2048x768 .f32) (harg2 : arg2.IsWhole) (arg3 : Memref sig .tc .vmem S1x3072x768 .f32) (harg3 : arg3.IsWhole) (arg4 : Memref sig .tc .vmem S1024x2048 .f32) (harg4 : arg4.IsWhole) (arg5 : Memref sig .tc .vmem S1024x768 .bf16) (harg5 : arg5.IsWhole) (arg6 : Memref sig .tc .vmem S2048x768 .bf16) (harg6 : arg6.IsWhole) (X4 : BufTy.Contents (Elt F) arg4.view.ty) (X5 : BufTy.Contents (Elt F) arg5.view.ty) (j : Fin k0_t2_loop.trips) :
    tripL_k0_t2 (F := F) 𝒱 c bd i arg1 harg1 arg2 harg2 arg3 harg3 arg4 harg4 arg5 harg5 arg6 harg6 X4 X5 j = [outPiece2 arg4 arg5 X4 X5 j] := rfl

/-! ## The lists accumulated over the trips -/

/-- After n trips of the first loop the output block's list holds exactly the pieces of the trips below n. -/
theorem mem_pb1_out (𝒱 : Variants) (c : Dev nD) (bd : Option 𝒱.V) (i : grid0.Coords) (arg1 : Memref sig .tc .vmem S1x1024x768 .f32) (harg1 : arg1.IsWhole) (arg2 : Memref sig .tc .vmem S1x2048x768 .f32) (harg2 : arg2.IsWhole) (arg3 : Memref sig .tc .vmem S1x3072x768 .f32) (harg3 : arg3.IsWhole) (arg4 : Memref sig .tc .vmem S1024x2048 .f32) (harg4 : arg4.IsWhole) (arg5 : Memref sig .tc .vmem S1024x768 .bf16) (harg5 : arg5.IsWhole) (arg6 : Memref sig .tc .vmem S2048x768 .bf16) (harg6 : arg6.IsWhole) (X1 : BufTy.Contents (Elt F) arg1.view.ty) (X2 : BufTy.Contents (Elt F) arg2.view.ty) (X6 : BufTy.Contents (Elt F) arg6.view.ty) (p : View.Piece (Elt F) S1x3072x768 .f32) (n : ℕ) (hn : n ≤ k0_t1_loop.trips) :
    p ∈ (pb_k0_t1 (F := F) 𝒱 c bd i arg1 harg1 arg2 harg2 arg3 harg3 arg4 harg4 arg5 harg5 arg6 harg6 X1 X2 X6 n).1
      ↔ ∃ (k : ℕ) (h : k < k0_t1_loop.trips), k < n ∧ p = outPiece1 arg1 arg2 arg6 X1 X2 X6 ⟨k, h⟩ := by
  rw [mem_grown k0_t1_loop.trips (fun n => (pb_k0_t1 (F := F) 𝒱 c bd i arg1 harg1 arg2 harg2 arg3 harg3 arg4 harg4 arg5 harg5 arg6 harg6 X1 X2 X6 n).1)
    (fun k h => (tripL_k0_t1 (F := F) 𝒱 c bd i arg1 harg1 arg2 harg2 arg3 harg3 arg4 harg4 arg5 harg5 arg6 harg6 X1 X2 X6 ⟨k, h⟩).1) rfl
    (fun k h => congrArg Prod.fst (pb_k0_t1_succ (F := F) 𝒱 c bd i arg1 harg1 arg2 harg2 arg3 harg3 arg4 harg4 arg5 harg5 arg6 harg6 X1 X2 X6 ⟨k, h⟩)) p n hn]
  simp only [trip1_out, List.mem_singleton]

/-- After n trips of the first loop the similarity scratch's list holds exactly the pieces of the trips below n. -/
theorem mem_pb1_sim (𝒱 : Variants) (c : Dev nD) (bd : Option 𝒱.V) (i : grid0.Coords) (arg1 : Memref sig .tc .vmem S1x1024x768 .f32) (harg1 : arg1.IsWhole) (arg2 : Memref sig .tc .vmem S1x2048x768 .f32) (harg2 : arg2.IsWhole) (arg3 : Memref sig .tc .vmem S1x3072x768 .f32) (harg3 : arg3.IsWhole) (arg4 : Memref sig .tc .vmem S1024x2048 .f32) (harg4 : arg4.IsWhole) (arg5 : Memref sig .tc .vmem S1024x768 .bf16) (harg5 : arg5.IsWhole) (arg6 : Memref sig .tc .vmem S2048x768 .bf16) (harg6 : arg6.IsWhole) (X1 : BufTy.Contents (Elt F) arg1.view.ty) (X2 : BufTy.Contents (Elt F) arg2.view.ty) (X6 : BufTy.Contents (Elt F) arg6.view.ty) (p : View.Piece (Elt F) S1024x2048 .f32) (n : ℕ) (hn : n ≤ k0_t1_loop.trips) :
    p ∈ (pb_k0_t1 (F := F) 𝒱 c bd i arg1 harg1 arg2 harg2 arg3 harg3 arg4 harg4 arg5 harg5 arg6 harg6 X1 X2 X6 n).2
      ↔ ∃ (k : ℕ) (h : k < k0_t1_loop.trips), k < n ∧ p = simPiece arg1 arg2 X1 X2 ⟨k, h⟩ := by
  rw [mem_grown k0_t1_loop.trips (fun n => (pb_k0_t1 (F := F) 𝒱 c bd i arg1 harg1 arg2 harg2 arg3 harg3 arg4 harg4 arg5 harg5 arg6 harg6 X1 X2 X6 n).2)
    (fun k h => (tripL_k0_t1 (F := F) 𝒱 c bd i arg1 harg1 arg2 harg2 arg3 harg3 arg4 harg4 arg5 harg5 arg6 harg6 X1 X2 X6 ⟨k, h⟩).2) rfl
    (fun k h => congrArg Prod.snd (pb_k0_t1_succ (F := F) 𝒱 c bd i arg1 harg1 arg2 harg2 arg3 harg3 arg4 harg4 arg5 harg5 arg6 harg6 X1 X2 X6 ⟨k, h⟩)) p n hn]
  simp only [trip1_sim, List.mem_singleton]

/-- After n trips of the second loop the output block's list holds exactly the pieces of the trips below n. -/
theorem mem_pb2_out (𝒱 : Variants) (c : Dev nD) (bd : Option 𝒱.V) (i : grid0.Coords) (arg1 : Memref sig .tc .vmem S1x1024x768 .f32) (harg1 : arg1.IsWhole) (arg2 : Memref sig .tc .vmem S1x2048x768 .f32) (harg2 : arg2.IsWhole) (arg3 : Memref sig .tc .vmem S1x3072x768 .f32) (harg3 : arg3.IsWhole) (arg4 : Memref sig .tc .vmem S1024x2048 .f32) (harg4 : arg4.IsWhole) (arg5 : Memref sig .tc .vmem S1024x768 .bf16) (harg5 : arg5.IsWhole) (arg6 : Memref sig .tc .vmem S2048x768 .bf16) (harg6 : arg6.IsWhole) (X4 : BufTy.Contents (Elt F) arg4.view.ty) (X5 : BufTy.Contents (Elt F) arg5.view.ty) (p : View.Piece (Elt F) S1x3072x768 .f32) (n : ℕ) (hn : n ≤ k0_t2_loop.trips) :
    p ∈ pb_k0_t2 (F := F) 𝒱 c bd i arg1 harg1 arg2 harg2 arg3 harg3 arg4 harg4 arg5 harg5 arg6 harg6 X4 X5 n
      ↔ ∃ (j : ℕ) (h : j < k0_t2_loop.trips), j < n ∧ p = outPiece2 arg4 arg5 X4 X5 ⟨j, h⟩ := by
  rw [mem_grown k0_t2_loop.trips (fun n => pb_k0_t2 (F := F) 𝒱 c bd i arg1 harg1 arg2 harg2 arg3 harg3 arg4 harg4 arg5 harg5 arg6 harg6 X4 X5 n)
    (fun j h => tripL_k0_t2 (F := F) 𝒱 c bd i arg1 harg1 arg2 harg2 arg3 harg3 arg4 harg4 arg5 harg5 arg6 harg6 X4 X5 ⟨j, h⟩) rfl
    (fun j h => pb_k0_t2_succ (F := F) 𝒱 c bd i arg1 harg1 arg2 harg2 arg3 harg3 arg4 harg4 arg5 harg5 arg6 harg6 X4 X5 ⟨j, h⟩) p n hn]
  simp only [trip2_out, List.mem_singleton]

/-! ## The first loop fills the similarity scratch -/

/-- Every entry (q, c) of the 1024 x 2048 scratch is under the store of trip q / 128: rows 128k .. 128k+127, all columns. -/
theorem sim_cover (𝒱 : Variants) (c : Dev nD) (bd : Option 𝒱.V) (i : grid0.Coords) (arg1 : Memref sig .tc .vmem S1x1024x768 .f32) (harg1 : arg1.IsWhole) (arg2 : Memref sig .tc .vmem S1x2048x768 .f32) (harg2 : arg2.IsWhole) (arg3 : Memref sig .tc .vmem S1x3072x768 .f32) (harg3 : arg3.IsWhole) (arg4 : Memref sig .tc .vmem S1024x2048 .f32) (harg4 : arg4.IsWhole) (arg5 : Memref sig .tc .vmem S1024x768 .bf16) (harg5 : arg5.IsWhole) (arg6 : Memref sig .tc .vmem S2048x768 .bf16) (harg6 : arg6.IsWhole) (X1 : BufTy.Contents (Elt F) arg1.view.ty) (X2 : BufTy.Contents (Elt F) arg2.view.ty) (X6 : BufTy.Contents (Elt F) arg6.view.ty) (y : S1024x2048.Idx) :
    ∃ p ∈ (pb_k0_t1 (F := F) 𝒱 c bd i arg1 harg1 arg2 harg2 arg3 harg3 arg4 harg4 arg5 harg5 arg6 harg6 X1 X2 X6 k0_t1_loop.trips).2, y ∈ p.1.set := by
  have h0 : (y 0).val < 1024 := (y 0).isLt
  have h1 : (y 1).val < 2048 := (y 1).isLt
  have hk : (y 0).val / 128 < k0_t1_loop.trips := by rw [trips1]; omega
  refine ⟨simPiece arg1 arg2 X1 X2 ⟨(y 0).val / 128, hk⟩,
    (mem_pb1_sim 𝒱 c bd i arg1 harg1 arg2 harg2 arg3 harg3 arg4 harg4 arg5 harg5 arg6 harg6 X1 X2 X6 _ _ (Nat.le_refl _)).mpr ⟨(y 0).val / 128, hk, hk, rfl⟩, ?_⟩
  show y ∈ (Rect.unit (s := S1024x2048) (k0_off2 ⟨(y 0).val / 128, hk⟩) S128x2048.size (k0_off2_inb _)).set
  rw [Rect.mem_set_unit, k0_off2_eq]
  intro a
  match a with
  | ⟨0, _⟩ => show 128 * ((y 0).val / 128) ≤ (y 0).val ∧ (y 0).val < 128 * ((y 0).val / 128) + 128; omega
  | ⟨1, _⟩ => show 0 ≤ (y 1).val ∧ (y 1).val < 0 + 2048; omega

/-- So what the first loop leaves in the scratch does not depend on what the scratch held before: over any prior
    contents f its stores leave what they leave over the view's junk (the scratch memref is the whole buffer, so
    contents that read the same are the same). -/
theorem sim_writes_junk (𝒱 : Variants) (c : Dev nD) (bd : Option 𝒱.V) (i : grid0.Coords) (arg1 : Memref sig .tc .vmem S1x1024x768 .f32) (harg1 : arg1.IsWhole) (arg2 : Memref sig .tc .vmem S1x2048x768 .f32) (harg2 : arg2.IsWhole) (arg3 : Memref sig .tc .vmem S1x3072x768 .f32) (harg3 : arg3.IsWhole) (arg4 : Memref sig .tc .vmem S1024x2048 .f32) (harg4 : arg4.IsWhole) (arg5 : Memref sig .tc .vmem S1024x768 .bf16) (harg5 : arg5.IsWhole) (arg6 : Memref sig .tc .vmem S2048x768 .bf16) (harg6 : arg6.IsWhole) (X1 : BufTy.Contents (Elt F) arg1.view.ty) (X2 : BufTy.Contents (Elt F) arg2.view.ty) (X6 : BufTy.Contents (Elt F) arg6.view.ty) (f : BufTy.Contents (Elt F) arg4.view.ty) (n : ℕ) (hn : n = k0_t1_loop.trips) :
    arg4.view.writes (Elt F) f (pb_k0_t1 (F := F) 𝒱 c bd i arg1 harg1 arg2 harg2 arg3 harg3 arg4 harg4 arg5 harg5 arg6 harg6 X1 X2 X6 n).2
      = arg4.view.writes (Elt F) arg4.view.junk (pb_k0_t1 (F := F) 𝒱 c bd i arg1 harg1 arg2 harg2 arg3 harg3 arg4 harg4 arg5 harg5 arg6 harg6 X1 X2 X6 n).2 := by
  subst hn
  exact harg4.read_bijective.1 (View.read_writes_of_cover arg4.view f arg4.view arg4.view.junk _
    (sim_cover 𝒱 c bd i arg1 harg1 arg2 harg2 arg3 harg3 arg4 harg4 arg5 harg5 arg6 harg6 X1 X2 X6))

end Cert.KernelIdeal.Trips

end
-- ==== Proof.Cover.lean ====
/-
  Which array indices a grid point's blocks are.

  The kernel runs on a grid of 32 points. At point t each of its three windows is batch entry t of its array, whole:
  the block index is (t, 0, 0) and the blocks have sizes [1, 1024, 768], [1, 2048, 768] and [1, 3072, 768]. A block's
  element sits in the array, on each axis, at the block index times the block's size plus its own coordinate. So
  element (0, r, d) of a block is element (t, r, d) of the array; an index of the result lies in point t's block
  exactly when each coordinate is in the block's range on its axis; and every index of the result lies in the block
  of the point that its batch coordinate names, which writes its block back.
-/
import proofs.«152790_j51256139710851_2_alg».proof.Proof.Gen.KernelIdeal.Frame.Runs
import proofs.«152790_j51256139710851_2_alg».proof.Proof.Gen.KernelIdeal.Points
import Idealize.ShloMosaic.Lib.Pipeline.Value
import Idealize.ShloMosaic.Lib.ValueIdx

noncomputable section

namespace Cert.KernelIdeal.Cover

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-! ## The three index maps -/

/-- The printed index maps, decided over the grid: at point t every window's block index is (t, 0, 0). -/
theorem idx_facts_all : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The same at one point. -/
theorem idx_facts (t : Fin cfg0.N) :
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  idx_facts_all t

/-! ## The input blocks -/

/-- Element (0, r, d) of the global rows' block at point t sits at (t, r, d) of the first argument. -/
theorem blk0_emb (t : Fin cfg0.N) (ht : t.val < 32) (r : Fin 1024) (d : Fin 768) :
    ((cfg0.win 0).blk t).view.emb (ix3 (0 : Fin 1) r d : S1x1024x768.Idx)
      = (ix3 (⟨t.val, ht⟩ : Fin 32) r d : S32x1024x768.Idx) := by
  obtain ⟨e0, e1, e2, -⟩ := idx_facts t
  funext a; apply Fin.ext
  match a with
  | ⟨0, _⟩ => show win0_0.index t (0 : Fin 3) * 1 + 1 * 0 = t.val; omega
  | ⟨1, _⟩ => show win0_0.index t (1 : Fin 3) * 1024 + 1 * r.val = r.val; omega
  | ⟨2, _⟩ => show win0_0.index t (2 : Fin 3) * 768 + 1 * d.val = d.val; omega

/-- The global rows' block at point t, read at (0, r, d), is the first argument at (t, r, d). -/
theorem iblk0_apply (c : Dev nD) (t : Fin cfg0.N) (ht : t.val < 32) (r : Fin 1024) (d : Fin 768) :
    iblk m c 0 t (ix3 (0 : Fin 1) r d : S1x1024x768.Idx)
      = V m c main_arg0 (ix3 (⟨t.val, ht⟩ : Fin 32) r d : S32x1024x768.Idx) := by
  show V m c main_arg0 (((cfg0.win 0).blk t).view.emb (ix3 (0 : Fin 1) r d : S1x1024x768.Idx)) = _
  rw [blk0_emb t ht r d]

/-- Element (0, r, d) of the local rows' block at point t sits at (t, r, d) of the second argument. -/
theorem blk1_emb (t : Fin cfg0.N) (ht : t.val < 32) (r : Fin 2048) (d : Fin 768) :
    ((cfg0.win 1).blk t).view.emb (ix3 (0 : Fin 1) r d : S1x2048x768.Idx)
      = (ix3 (⟨t.val, ht⟩ : Fin 32) r d : S32x2048x768.Idx) := by
  obtain ⟨-, -, -, e0, e1, e2, -⟩ := idx_facts t
  funext a; apply Fin.ext
  match a with
  | ⟨0, _⟩ => show win0_1.index t (0 : Fin 3) * 1 + 1 * 0 = t.val; omega
  | ⟨1, _⟩ => show win0_1.index t (1 : Fin 3) * 2048 + 1 * r.val = r.val; omega
  | ⟨2, _⟩ => show win0_1.index t (2 : Fin 3) * 768 + 1 * d.val = d.val; omega

/-- The local rows' block at point t, read at (0, r, d), is the second argument at (t, r, d). -/
theorem iblk1_apply (c : Dev nD) (t : Fin cfg0.N) (ht : t.val < 32) (r : Fin 2048) (d : Fin 768) :
    iblk m c 1 t (ix3 (0 : Fin 1) r d : S1x2048x768.Idx)
      = V m c main_arg1 (ix3 (⟨t.val, ht⟩ : Fin 32) r d : S32x2048x768.Idx) := by
  show V m c main_arg1 (((cfg0.win 1).blk t).view.emb (ix3 (0 : Fin 1) r d : S1x2048x768.Idx)) = _
  rw [blk1_emb t ht r d]

/-! ## The result's blocks -/

/-- Element y of the result's block at point t sits at (t, y 1, y 2) of the result. -/
theorem blk2_emb (t : Fin cfg0.N) (ht : t.val < 32) (y : S1x3072x768.Idx) :
    ((cfg0.win 2).blk t).view.emb y = (ix3 (⟨t.val, ht⟩ : Fin 32) (y 1) (y 2) : S32x3072x768.Idx) := by
  obtain ⟨-, -, -, -, -, -, e0, e1, e2⟩ := idx_facts t
  have hy0 : (y 0).val < 1 := (y 0).isLt
  funext a; apply Fin.ext
  match a with
  | ⟨0, _⟩ => show win0_2.index t (0 : Fin 3) * 1 + 1 * (y 0).val = t.val; omega
  | ⟨1, _⟩ => show win0_2.index t (1 : Fin 3) * 3072 + 1 * (y 1).val = (y 1).val; omega
  | ⟨2, _⟩ => show win0_2.index t (2 : Fin 3) * 768 + 1 * (y 2).val = (y 2).val; omega

/-- An index of the result is in point t's block iff each coordinate is in the block's range on its axis. -/
theorem mem_blk2 (t : Fin cfg0.N) (i : S32x3072x768.Idx) :
    i ∈ ((cfg0.win 2).blk t).view.set ↔ ∀ a : Fin 3, win0_2.index t a * S1x3072x768.size a ≤ (i a).val
      ∧ (i a).val < win0_2.index t a * S1x3072x768.size a + S1x3072x768.size a := by
  show i ∈ ((View.whole main_v0).slice (win0_2.rect t)).set ↔ _
  rw [View.set_slice_whole, Rect.mem_set_unit]
  exact Iff.rfl

/-- Every index of the result is in the block of the point its batch coordinate names, and that point writes its
    block back. -/
theorem covered (i : S32x3072x768.Idx) :
    ∃ t : Fin cfg0.N, (cfg0.win 2).flush t = true ∧ i ∈ ((cfg0.win 2).blk t).view.set := by
  have hN : cfg0.N = 32 := N_0
  have hi0 : (i 0).val < 32 := (i 0).isLt
  have hi1 : (i 1).val < 3072 := (i 1).isLt
  have hi2 : (i 2).val < 768 := (i 2).isLt
  obtain ⟨t, ht⟩ : ∃ t : Fin cfg0.N, t.val = (i 0).val := ⟨⟨(i 0).val, by omega⟩, rfl⟩
  obtain ⟨-, -, -, -, -, -, e0, e1, e2⟩ := idx_facts t
  refine ⟨t, flush0_2 t, ?_⟩
  rw [mem_blk2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 3072 ≤ (i 1).val ∧ (i 1).val < win0_2.index t (1 : Fin 3) * 3072 + 3072; omega
  | ⟨2, _⟩ => show win0_2.index t (2 : Fin 3) * 768 ≤ (i 2).val ∧ (i 2).val < win0_2.index t (2 : Fin 3) * 768 + 768; omega

end Cert.KernelIdeal.Cover

end
-- ==== Proof.Spec.lean ====
/-
  The result, index by index, over the extended reals.

  For one batch entry let g : 1024 x 768 be the global rows and l : 2048 x 768 the local rows, and let
  s r c = sum over d of g r d * l c d be their similarity. The first 1024 rows of the result attend from a
  global row to the local rows: row r is the softmax of s r . (over c) applied to the columns of l.
  The last 2048 rows attend from a local row to the global rows: row 1024 + c is the softmax of s . c (over r)
  applied to the columns of g. The softmax is taken with the maximum subtracted:
      w k = exp (s k - max s) / sum over k' of exp (s k' - max s),
  the maximum folded from the pattern of minus infinity. Nothing here is special to finite entries: every
  operation is the extended reals' own, and both programs are shown to compute exactly these terms.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx
open scoped BigOperators

/-- The value of the f32 pattern of minus infinity, from which both programs fold their maxima. -/
abbrev negInf : EReal := Ideal.ofBits .f32 0xFF800000#32

/-- The maximum of a finite family, folded from minus infinity. -/
def smax {κ : Type} [Fintype κ] (s : κ → EReal) : EReal :=
  (Finset.univ : Finset κ).fold max negInf s

/-- The softmax weight of entry k: exp (s k - max s) over the sum of all such exponentials. -/
def weight {κ : Type} [Fintype κ] (s : κ → EReal) (k : κ) : EReal :=
  Ideal.div (Ideal.exp (s k - smax s)) (∑ k' : κ, Ideal.exp (s k' - smax s))

/-- The values v averaged under the softmax weights of the scores s. -/
def attend {κ : Type} [Fintype κ] (s : κ → EReal) (v : κ → EReal) : EReal :=
  ∑ k : κ, weight s k * v k

/-- The similarity of global row r and local row c: their inner product over the 768 features. -/
def sim (g : Fin 1024 → Fin 768 → EReal) (l : Fin 2048 → Fin 768 → EReal) (r : Fin 1024) (c : Fin 2048) : EReal :=
  ∑ d : Fin 768, g r d * l c d

/-- One batch entry's 3072 x 768 result: rows below 1024 attend over the local rows, the others over the global rows. -/
def out (g : Fin 1024 → Fin 768 → EReal) (l : Fin 2048 → Fin 768 → EReal) (r : Fin 3072) (d : Fin 768) : EReal :=
  if h : r.val < 1024 then
    attend (fun c : Fin 2048 => sim g l ⟨r.val, h⟩ c) (fun c => l c d)
  else
    attend (fun q : Fin 1024 => sim g l q ⟨r.val - 1024, by have := r.isLt; omega⟩) (fun q => g q d)

/-- The whole result array as one function of the two argument arrays: batch entry i 0, row i 1, feature i 2. -/
def G (a0 : (⟨3, ![32, 1024, 768]⟩ : Shape).Idx → EReal) (a1 : (⟨3, ![32, 2048, 768]⟩ : Shape).Idx → EReal) :
    (⟨3, ![32, 3072, 768]⟩ : Shape).Idx → EReal :=
  fun i => out (fun r d => a0 (ix3 (i 0) r d)) (fun c d => a1 (ix3 (i 0) c d)) (i 1) (i 2)

/-- A row below 1024. -/
theorem out_lo (g : Fin 1024 → Fin 768 → EReal) (l : Fin 2048 → Fin 768 → EReal) (r : Fin 3072) (d : Fin 768)
    (h : r.val < 1024) :
    out g l r d = attend (fun c : Fin 2048 => sim g l ⟨r.val, h⟩ c) (fun c => l c d) := by
  unfold out; rw [dif_pos h]

/-- A row from 1024 on. -/
theorem out_hi (g : Fin 1024 → Fin 768 → EReal) (l : Fin 2048 → Fin 768 → EReal) (r : Fin 3072) (d : Fin 768)
    (h : ¬ r.val < 1024) :
    out g l r d = attend (fun q : Fin 1024 => sim g l q ⟨r.val - 1024, by have := r.isLt; omega⟩) (fun q => g q d) := by
  unfold out; rw [dif_neg h]

end Cert.Attn

end
-- ==== Proof.BlockSpec.lean ====
import proofs.«152790_j51256139710851_2_alg».proof.Proof.Spec
import proofs.«152790_j51256139710851_2_alg».proof.KernelIdeal
import Idealize.ShloMosaic.Lib.ValueIdx

/-
  One grid point of the kernel, as functions of its two input blocks.

  A grid point holds one batch entry: the global block x0 (1 x 1024 x 768) and the local block x1 (1 x 2048 x 768).
  The similarity scratch after the first loop is the 1024 x 2048 matrix of inner products of global and local rows;
  the output block (1 x 3072 x 768) is the batch entry's result of the specification.
-/

noncomputable section

namespace Cert.KernelIdeal.Block

open Idealize.ShloMosaic Idealize.ShloMosaic.ValueIdx Cert.KernelIdeal

/-- One grid point's output block as a function of its two input blocks. -/
def blk (x0 : Vec Ideal S1x1024x768 .f32) (x1 : Vec Ideal S1x2048x768 .f32) : Vec Ideal S1x3072x768 .f32 :=
  fun y => Cert.Attn.out (fun r d => x0 (ix3 0 r d)) (fun c d => x1 (ix3 0 c d)) (y 1) (y 2)

/-- The similarity scratch after the first loop as a function of the two input blocks. -/
def simf (x0 : Vec Ideal S1x1024x768 .f32) (x1 : Vec Ideal S1x2048x768 .f32) : Vec Ideal S1024x2048 .f32 :=
  fun y => Cert.Attn.sim (fun r d => x0 (ix3 0 r d)) (fun c d => x1 (ix3 0 c d)) (y 0) (y 1)

end Cert.KernelIdeal.Block

end
-- ==== Proof.Payload.lean ====
/-
  The kernel body's arithmetic, read at an index at the ideal instance.

  Each payload of the kernel is a short chain of vector operations over the blocks it loads. Read at one index
  of its result, over the extended reals, the chain is: a format change (the identity), a leading unit axis dropped
  or added (the same element), a block product (a sum of products over the contracted axis), and for the two
  attention payloads a softmax along one axis of the score block - the maximum folded from minus infinity, the
  exponential of the difference, its sum, the quotient - followed by a block product with the value rows.
  These are exactly the terms of the specification's weight and attend.
-/
import proofs.«152790_j51256139710851_2_alg».proof.Proof.Spec
import proofs.«152790_j51256139710851_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx
open Cert.KernelIdeal Cert.KernelIdeal.Gen
open scoped BigOperators

/-! ## The two format-change payloads: a leading unit axis dropped -/

/-- The global rows' block, narrowed: element (q, d) is the loaded element (0, q, d). -/
theorem pay1_apply (v0 : Vec Ideal S1x1024x768 .f32) (q : Fin 1024) (d : Fin 768) :
    k0_pay1 (F := Ideal) v0 (ix2 q d) = v0 (ix3 0 q d) := by
  unfold k0_pay1
  show shapeCast S1024x768 (truncf (F := Ideal) .bf16 (shapeCast S1024x768 v0 shapeCasts_S1x1024x768_S1024x768) bitsLt_bf16_f32)
    shapeCasts_S1024x768_S1024x768 (ix2 q d) = _
  rw [shapeCast_self]
  exact shapeCast_1ab_ab_apply v0 shapeCasts_S1x1024x768_S1024x768 q d

/-- The local rows' block, narrowed: element (c, d) is the loaded element (0, c, d). -/
theorem pay2_apply (v6 : Vec Ideal S1x2048x768 .f32) (c : Fin 2048) (d : Fin 768) :
    k0_pay2 (F := Ideal) v6 (ix2 c d) = v6 (ix3 0 c d) := by
  unfold k0_pay2
  show shapeCast S2048x768 (truncf (F := Ideal) .bf16 (shapeCast S2048x768 v6 shapeCasts_S1x2048x768_S2048x768) bitsLt_bf16_f32)
    shapeCasts_S2048x768_S2048x768 (ix2 c d) = _
  rw [shapeCast_self]
  exact shapeCast_1ab_ab_apply v6 shapeCasts_S1x2048x768_S2048x768 c d

/-! ## The score block: rows of the query block against all local rows -/

theorem lhs1_0 (i : S128x2048.Idx) (q : dot_S128x768_S2048x768_S128x2048_1_1_0_0_n_n.contr.Idx) :
    (dot_S128x768_S2048x768_S128x2048_1_1_0_0_n_n.lhsIdx i q 0).val = (i 0).val := by
  unfold DotDims.lhsIdx
  rw [dif_neg (show ¬(0 : Fin S128x768.rank) ∈ dot_S128x768_S2048x768_S128x2048_1_1_0_0_n_n.lhsBatch by decide), dif_pos (show (0 : Fin S128x768.rank) ∈ dot_S128x768_S2048x768_S128x2048_1_1_0_0_n_n.lhsNonContracting by decide)]
  rfl
theorem lhs1_1 (i : S128x2048.Idx) (q : dot_S128x768_S2048x768_S128x2048_1_1_0_0_n_n.contr.Idx) :
    (dot_S128x768_S2048x768_S128x2048_1_1_0_0_n_n.lhsIdx i q 1).val = (q ⟨0, by decide⟩).val :=
  dot_S128x768_S2048x768_S128x2048_1_1_0_0_n_n.lhsIdx_val_of_single rfl i q
theorem rhs1_0 (i : S128x2048.Idx) (q : dot_S128x768_S2048x768_S128x2048_1_1_0_0_n_n.contr.Idx) :
    (dot_S128x768_S2048x768_S128x2048_1_1_0_0_n_n.rhsIdx i q 0).val = (i 1).val := by
  unfold DotDims.rhsIdx
  rw [dif_neg (show ¬(0 : Fin S2048x768.rank) ∈ dot_S128x768_S2048x768_S128x2048_1_1_0_0_n_n.rhsBatch by decide), dif_pos (show (0 : Fin S2048x768.rank) ∈ dot_S128x768_S2048x768_S128x2048_1_1_0_0_n_n.rhsNonContracting by decide)]
  rfl
theorem rhs1_1 (i : S128x2048.Idx) (q : dot_S128x768_S2048x768_S128x2048_1_1_0_0_n_n.contr.Idx) :
    (dot_S128x768_S2048x768_S128x2048_1_1_0_0_n_n.rhsIdx i q 1).val = (q ⟨0, by decide⟩).val :=
  dot_S128x768_S2048x768_S128x2048_1_1_0_0_n_n.rhsIdx_val_of_single rfl i q

/-- The block product contracting the feature axis of both operands, into the zero block: entry (p, c) is the
    inner product of row p of the left operand and row c of the right one. -/
theorem matmul1_apply (A : FVec Ideal S128x768 .f32) (B : FVec Ideal S2048x768 .f32) (p : Fin 128) (c : Fin 2048) :
    FloatOps.matmul dot_S128x768_S2048x768_S128x2048_1_1_0_0_n_n (some .fp32) A B (constant (F := Ideal) S128x2048 .f32 0x00000000#32) (ix2 p c)
      = ∑ d : Fin 768, A (ix2 p d) * B (ix2 c d) := by
  rw [Ideal.matmul_constant_zero_apply, ← Equiv.sum_comp (contrEquiv1 dot_S128x768_S2048x768_S128x2048_1_1_0_0_n_n 768 rfl rfl).symm]
  refine Finset.sum_congr rfl fun k _ => ?_
  have hk := contrEquiv1_symm_val dot_S128x768_S2048x768_S128x2048_1_1_0_0_n_n 768 rfl rfl k
  have el : dot_S128x768_S2048x768_S128x2048_1_1_0_0_n_n.lhsIdx (ix2 p c) ((contrEquiv1 dot_S128x768_S2048x768_S128x2048_1_1_0_0_n_n 768 rfl rfl).symm k) = ix2 p k := funext fun a => Fin.ext (by
    match a with
    | ⟨0, _⟩ => exact lhs1_0 _ _
    | ⟨1, _⟩ => exact (lhs1_1 _ _).trans hk)
  have er : dot_S128x768_S2048x768_S128x2048_1_1_0_0_n_n.rhsIdx (ix2 p c) ((contrEquiv1 dot_S128x768_S2048x768_S128x2048_1_1_0_0_n_n 768 rfl rfl).symm k) = ix2 c k := funext fun a => Fin.ext (by
    match a with
    | ⟨0, _⟩ => exact rhs1_0 _ _
    | ⟨1, _⟩ => exact (rhs1_1 _ _).trans hk)
  rw [el, er]

/-- The score block at (p, c): the inner product of query row p and local row c over the 768 features. -/
theorem pay3_apply (v19 : Vec Ideal S1x128x768 .f32) (v21 : Vec Ideal S1x2048x768 .f32) (p : Fin 128) (c : Fin 2048) :
    k0_pay3 (F := Ideal) v19 v21 (ix2 p c) = ∑ d : Fin 768, v19 (ix3 0 p d) * v21 (ix3 0 c d) := by
  unfold k0_pay3
  show FloatOps.matmul dot_S128x768_S2048x768_S128x2048_1_1_0_0_n_n (some .fp32)
      (shapeCast S128x768 v19 shapeCasts_S1x128x768_S128x768) (shapeCast S2048x768 v21 shapeCasts_S1x2048x768_S2048x768)
      (constant (F := Ideal) S128x2048 .f32 0x00000000#32) (ix2 p c) = _
  refine (matmul1_apply _ _ p c).trans ?_
  refine Finset.sum_congr rfl fun d _ => ?_
  rw [shapeCast_1ab_ab_apply v19 shapeCasts_S1x128x768_S128x768 p d,
    shapeCast_1ab_ab_apply v21 shapeCasts_S1x2048x768_S2048x768 c d]

/-- The score block as it is stored: the same entries. -/
theorem pay4_apply (v19 : Vec Ideal S1x128x768 .f32) (v21 : Vec Ideal S1x2048x768 .f32) (p : Fin 128) (c : Fin 2048) :
    k0_pay4 (F := Ideal) v19 v21 (ix2 p c) = ∑ d : Fin 768, v19 (ix3 0 p d) * v21 (ix3 0 c d) := by
  unfold k0_pay4
  show shapeCast S128x2048 (k0_pay3 (F := Ideal) v19 v21) shapeCasts_S128x2048_S128x2048 (ix2 p c) = _
  rw [shapeCast_self]
  exact pay3_apply v19 v21 p c

/-! ## A vector spread down the columns of a block (the keepdims column forms) -/

/-- An `[a]` array cast to `[a, 1]` reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The softmax along the rows of a score block -/

/-- A reduced index p with column k put back on the dropped axis is (p, k). -/
theorem lift1_ix2 (h : S128x2048.Reduces [1] S128) (p : Fin 128) (k : Fin (S128x2048.size 1)) :
    h.lift (ix1 p) k = ix2 p (⟨k.val, k.isLt⟩ : Fin 2048) := by
  funext c; apply Fin.ext
  match c with
  | ⟨0, _⟩ => rfl
  | ⟨1, _⟩ => rfl

/-- The maximum along a row of a score block, folded from minus infinity. -/
theorem rowmax_apply (S : FVec Ideal S128x2048 .f32) (p : Fin 128) :
    multiReduction (F := Ideal) .maximumf [1] S128 S 0xFF800000#32 reduces_S128x2048_S128 (.inl rfl) rfl (ix1 p)
      = Cert.Attn.smax (fun c : Fin 2048 => S (ix2 p c)) := by
  refine (Ideal.multiReduction_maximumf_single S _ reduces_S128x2048_S128 (.inl rfl) rfl (ix1 p)).trans ?_
  have hf : (S ∘ reduces_S128x2048_S128.lift (ix1 p)) = fun k : Fin 2048 => S (ix2 p k) :=
    funext fun k => congrArg S (lift1_ix2 _ p k)
  exact congrArg (fun f => Finset.fold max (Ideal.ofBits .f32 0xFF800000#32) f (Finset.univ : Finset (Fin 2048))) hf

/-- The sum along a row of a block. -/
theorem rowsum_apply (E : FVec Ideal S128x2048 .f32) (p : Fin 128) :
    multiReduction (F := Ideal) .add [1] S128 E 0x00000000#32 reduces_S128x2048_S128 (.inl rfl) rfl (ix1 p)
      = ∑ c : Fin 2048, E (ix2 p c) := by
  refine (Ideal.multiReduction_add_single E _ reduces_S128x2048_S128 (.inl rfl) rfl (ix1 p)).trans ?_
  show ∑ k : Fin 2048, E (reduces_S128x2048_S128.lift (ix1 p) k) = _
  exact Finset.sum_congr rfl fun k _ => congrArg E (lift1_ix2 _ p k)

/-- The row maxima of a score block, spread back over the block. -/
def rowMaxB (S : FVec Ideal S128x2048 .f32) : FVec Ideal S128x2048 .f32 :=
  broadcastTo S128x2048
    (shapeCast S128x1 (multiReduction (F := Ideal) .maximumf [1] S128 S 0xFF800000#32 reduces_S128x2048_S128 (.inl rfl) rfl)
      shapeCasts_S128_S128x1) broadcasts_S128x1_S128x2048

theorem rowMaxB_apply (S : FVec Ideal S128x2048 .f32) (p : Fin 128) (c : Fin 2048) :
    rowMaxB S (ix2 p c) = Cert.Attn.smax (fun c' : Fin 2048 => S (ix2 p c')) := by
  unfold rowMaxB
  refine (broadcastTo_a1_ab_apply _ broadcasts_S128x1_S128x2048 p c).trans ?_
  refine (shapeCast_a_a1_apply _ shapeCasts_S128_S128x1 p 0).trans ?_
  exact rowmax_apply S p

/-- The row sums of a block, spread back over the block. -/
def rowSumB (E : FVec Ideal S128x2048 .f32) : FVec Ideal S128x2048 .f32 :=
  broadcastTo S128x2048
    (shapeCast S128x1 (multiReduction (F := Ideal) .add [1] S128 E 0x00000000#32 reduces_S128x2048_S128 (.inl rfl) rfl)
      shapeCasts_S128_S128x1) broadcasts_S128x1_S128x2048

theorem rowSumB_apply (E : FVec Ideal S128x2048 .f32) (p : Fin 128) (c : Fin 2048) :
    rowSumB E (ix2 p c) = ∑ c' : Fin 2048, E (ix2 p c') := by
  unfold rowSumB
  refine (broadcastTo_a1_ab_apply _ broadcasts_S128x1_S128x2048 p c).trans ?_
  refine (shapeCast_a_a1_apply _ shapeCasts_S128_S128x1 p 0).trans ?_
  exact rowsum_apply E p

/-- The softmax weights of a score block along its rows, as the kernel computes them. -/
def rowWeights (S : FVec Ideal S128x2048 .f32) : FVec Ideal S128x2048 .bf16 :=
  truncf .bf16 (divf (exp (subf S (rowMaxB S))) (rowSumB (exp (subf S (rowMaxB S))))) bitsLt_bf16_f32

/-- Entry (p, c) of the weights is the specification's softmax weight of column c among row p's scores. -/
theorem rowWeights_apply (S : FVec Ideal S128x2048 .f32) (p : Fin 128) (c : Fin 2048) :
    rowWeights S (ix2 p c) = Cert.Attn.weight (fun c' : Fin 2048 => S (ix2 p c')) c := by
  unfold Cert.Attn.weight
  show Ideal.div (Ideal.exp (S (ix2 p c) - rowMaxB S (ix2 p c))) (rowSumB (exp (subf S (rowMaxB S))) (ix2 p c)) = _
  rw [rowMaxB_apply, rowSumB_apply]
  refine congrArg (Ideal.div _) (Finset.sum_congr rfl fun c' _ => ?_)
  show Ideal.exp (S (ix2 p c') - rowMaxB S (ix2 p c')) = _
  rw [rowMaxB_apply]

/-! ## The weights against the value rows -/

theorem lhs2_0 (i : S128x768.Idx) (q : dot_S128x2048_S2048x768_S128x768_1_0_0_1_n_n.contr.Idx) :
    (dot_S128x2048_S2048x768_S128x768_1_0_0_1_n_n.lhsIdx i q 0).val = (i 0).val := by
  unfold DotDims.lhsIdx
  rw [dif_neg (show ¬(0 : Fin S128x2048.rank) ∈ dot_S128x2048_S2048x768_S128x768_1_0_0_1_n_n.lhsBatch by decide), dif_pos (show (0 : Fin S128x2048.rank) ∈ dot_S128x2048_S2048x768_S128x768_1_0_0_1_n_n.lhsNonContracting by decide)]
  rfl
theorem lhs2_1 (i : S128x768.Idx) (q : dot_S128x2048_S2048x768_S128x768_1_0_0_1_n_n.contr.Idx) :
    (dot_S128x2048_S2048x768_S128x768_1_0_0_1_n_n.lhsIdx i q 1).val = (q ⟨0, by decide⟩).val :=
  dot_S128x2048_S2048x768_S128x768_1_0_0_1_n_n.lhsIdx_val_of_single rfl i q
theorem rhs2_0 (i : S128x768.Idx) (q : dot_S128x2048_S2048x768_S128x768_1_0_0_1_n_n.contr.Idx) :
    (dot_S128x2048_S2048x768_S128x768_1_0_0_1_n_n.rhsIdx i q 0).val = (q ⟨0, by decide⟩).val :=
  dot_S128x2048_S2048x768_S128x768_1_0_0_1_n_n.rhsIdx_val_of_single rfl i q
theorem rhs2_1 (i : S128x768.Idx) (q : dot_S128x2048_S2048x768_S128x768_1_0_0_1_n_n.contr.Idx) :
    (dot_S128x2048_S2048x768_S128x768_1_0_0_1_n_n.rhsIdx i q 1).val = (i 1).val := by
  unfold DotDims.rhsIdx
  rw [dif_neg (show ¬(1 : Fin S2048x768.rank) ∈ dot_S128x2048_S2048x768_S128x768_1_0_0_1_n_n.rhsBatch by decide), dif_pos (show (1 : Fin S2048x768.rank) ∈ dot_S128x2048_S2048x768_S128x768_1_0_0_1_n_n.rhsNonContracting by decide)]
  rfl

/-- The block product contracting the columns of the left operand with the rows of the right one, into the zero
    block: entry (p, d) is the sum over c of left (p, c) times right (c, d). -/
theorem matmul2_apply (A : FVec Ideal S128x2048 .bf16) (B : FVec Ideal S2048x768 .bf16) (p : Fin 128) (d : Fin 768) :
    FloatOps.matmul dot_S128x2048_S2048x768_S128x768_1_0_0_1_n_n none A B (constant (F := Ideal) S128x768 .f32 0x00000000#32) (ix2 p d)
      = ∑ c : Fin 2048, A (ix2 p c) * B (ix2 c d) := by
  rw [Ideal.matmul_constant_zero_apply, ← Equiv.sum_comp (contrEquiv1 dot_S128x2048_S2048x768_S128x768_1_0_0_1_n_n 2048 rfl rfl).symm]
  refine Finset.sum_congr rfl fun k _ => ?_
  have hk := contrEquiv1_symm_val dot_S128x2048_S2048x768_S128x768_1_0_0_1_n_n 2048 rfl rfl k
  have el : dot_S128x2048_S2048x768_S128x768_1_0_0_1_n_n.lhsIdx (ix2 p d) ((contrEquiv1 dot_S128x2048_S2048x768_S128x768_1_0_0_1_n_n 2048 rfl rfl).symm k) = ix2 p k := funext fun a => Fin.ext (by
    match a with
    | ⟨0, _⟩ => exact lhs2_0 _ _
    | ⟨1, _⟩ => exact (lhs2_1 _ _).trans hk)
  have er : dot_S128x2048_S2048x768_S128x768_1_0_0_1_n_n.rhsIdx (ix2 p d) ((contrEquiv1 dot_S128x2048_S2048x768_S128x768_1_0_0_1_n_n 2048 rfl rfl).symm k) = ix2 k d := funext fun a => Fin.ext (by
    match a with
    | ⟨0, _⟩ => exact (rhs2_0 _ _).trans hk
    | ⟨1, _⟩ => exact rhs2_1 _ _)
  rw [el, er]

/-- The kernel's first attention payload is the row softmax of its score block against the value rows. -/
theorem pay5_eq (v19 : Vec Ideal S1x128x768 .f32) (v21 : Vec Ideal S1x2048x768 .f32) (v38 : Vec Ideal S2048x768 .bf16) :
    k0_pay5 (F := Ideal) v19 v21 v38
      = shapeCast S1x128x768
          (FloatOps.matmul (φ₂ := .bf16) dot_S128x2048_S2048x768_S128x768_1_0_0_1_n_n none (rowWeights (k0_pay3 (F := Ideal) v19 v21)) v38
            (constant (F := Ideal) S128x768 .f32 0x00000000#32))
          shapeCasts_S128x768_S1x128x768 := rfl

/-- Row p of the first attention payload: query row p attends over the 2048 local rows. -/
theorem pay5_apply (v19 : Vec Ideal S1x128x768 .f32) (v21 : Vec Ideal S1x2048x768 .f32) (v38 : Vec Ideal S2048x768 .bf16)
    (p : Fin 128) (d : Fin 768) :
    k0_pay5 (F := Ideal) v19 v21 v38 (ix3 0 p d)
      = Cert.Attn.attend (fun c : Fin 2048 => ∑ d' : Fin 768, v19 (ix3 0 p d') * v21 (ix3 0 c d')) (fun c => v38 (ix2 c d)) := by
  rw [pay5_eq]
  refine (shapeCast_ab_1ab_apply _ shapeCasts_S128x768_S1x128x768 0 p d).trans ?_
  refine (matmul2_apply _ _ p d).trans ?_
  have hs : (fun c : Fin 2048 => k0_pay3 (F := Ideal) v19 v21 (ix2 p c))
      = fun c : Fin 2048 => ∑ d' : Fin 768, v19 (ix3 0 p d') * v21 (ix3 0 c d') := funext fun c => pay3_apply v19 v21 p c
  rw [← hs]
  unfold Cert.Attn.attend
  exact Finset.sum_congr rfl fun c _ => congrArg (· * v38 (ix2 c d)) (rowWeights_apply _ p c)

/-! ## The softmax down the columns of a score block -/

/-- A reduced index p with row k put back on the dropped axis is (k, p). -/
theorem lift0_ix2 (h : S1024x128.Reduces [0] S128) (p : Fin 128) (k : Fin (S1024x128.size 0)) :
    h.lift (ix1 p) k = ix2 (⟨k.val, k.isLt⟩ : Fin 1024) p := by
  funext c; apply Fin.ext
  match c with
  | ⟨0, _⟩ => rfl
  | ⟨1, _⟩ => rfl

/-- The maximum down a column of a score block, folded from minus infinity. -/
theorem colmax_apply (T : FVec Ideal S1024x128 .f32) (p : Fin 128) :
    multiReduction (F := Ideal) .maximumf [0] S128 T 0xFF800000#32 reduces_S1024x128_S128 (.inl rfl) rfl (ix1 p)
      = Cert.Attn.smax (fun q : Fin 1024 => T (ix2 q p)) := by
  refine (Ideal.multiReduction_maximumf_single T _ reduces_S1024x128_S128 (.inl rfl) rfl (ix1 p)).trans ?_
  have hf : (T ∘ reduces_S1024x128_S128.lift (ix1 p)) = fun k : Fin 1024 => T (ix2 k p) :=
    funext fun k => congrArg T (lift0_ix2 _ p k)
  exact congrArg (fun f => Finset.fold max (Ideal.ofBits .f32 0xFF800000#32) f (Finset.univ : Finset (Fin 1024))) hf

/-- The sum down a column of a block. -/
theorem colsum_apply (E : FVec Ideal S1024x128 .f32) (p : Fin 128) :
    multiReduction (F := Ideal) .add [0] S128 E 0x00000000#32 reduces_S1024x128_S128 (.inl rfl) rfl (ix1 p)
      = ∑ q : Fin 1024, E (ix2 q p) := by
  refine (Ideal.multiReduction_add_single E _ reduces_S1024x128_S128 (.inl rfl) rfl (ix1 p)).trans ?_
  show ∑ k : Fin 1024, E (reduces_S1024x128_S128.lift (ix1 p) k) = _
  exact Finset.sum_congr rfl fun k _ => congrArg E (lift0_ix2 _ p k)

/-- The column maxima of a score block, spread back over the block. -/
def colMaxB (T : FVec Ideal S1024x128 .f32) : FVec Ideal S1024x128 .f32 :=
  broadcastTo S1024x128
    (shapeCast S1x128 (multiReduction (F := Ideal) .maximumf [0] S128 T 0xFF800000#32 reduces_S1024x128_S128 (.inl rfl) rfl)
      shapeCasts_S128_S1x128) broadcasts_S1x128_S1024x128

theorem colMaxB_apply (T : FVec Ideal S1024x128 .f32) (q : Fin 1024) (p : Fin 128) :
    colMaxB T (ix2 q p) = Cert.Attn.smax (fun q' : Fin 1024 => T (ix2 q' p)) := by
  unfold colMaxB
  refine (broadcastTo_1b_ab_apply _ broadcasts_S1x128_S1024x128 q p).trans ?_
  refine (shapeCast_a_1a_apply _ shapeCasts_S128_S1x128 0 p).trans ?_
  exact colmax_apply T p

/-- The column sums of a block, spread back over the block. -/
def colSumB (E : FVec Ideal S1024x128 .f32) : FVec Ideal S1024x128 .f32 :=
  broadcastTo S1024x128
    (shapeCast S1x128 (multiReduction (F := Ideal) .add [0] S128 E 0x00000000#32 reduces_S1024x128_S128 (.inl rfl) rfl)
      shapeCasts_S128_S1x128) broadcasts_S1x128_S1024x128

theorem colSumB_apply (E : FVec Ideal S1024x128 .f32) (q : Fin 1024) (p : Fin 128) :
    colSumB E (ix2 q p) = ∑ q' : Fin 1024, E (ix2 q' p) := by
  unfold colSumB
  refine (broadcastTo_1b_ab_apply _ broadcasts_S1x128_S1024x128 q p).trans ?_
  refine (shapeCast_a_1a_apply _ shapeCasts_S128_S1x128 0 p).trans ?_
  exact colsum_apply E p

/-- The softmax weights of a score block down its columns, as the kernel computes them. -/
def colWeights (T : FVec Ideal S1024x128 .f32) : FVec Ideal S1024x128 .bf16 :=
  truncf .bf16 (divf (exp (subf T (colMaxB T))) (colSumB (exp (subf T (colMaxB T))))) bitsLt_bf16_f32

/-- Entry (q, p) of the weights is the specification's softmax weight of row q among column p's scores. -/
theorem colWeights_apply (T : FVec Ideal S1024x128 .f32) (q : Fin 1024) (p : Fin 128) :
    colWeights T (ix2 q p) = Cert.Attn.weight (fun q' : Fin 1024 => T (ix2 q' p)) q := by
  unfold Cert.Attn.weight
  show Ideal.div (Ideal.exp (T (ix2 q p) - colMaxB T (ix2 q p))) (colSumB (exp (subf T (colMaxB T))) (ix2 q p)) = _
  rw [colMaxB_apply, colSumB_apply]
  refine congrArg (Ideal.div _) (Finset.sum_congr rfl fun q' _ => ?_)
  show Ideal.exp (T (ix2 q' p) - colMaxB T (ix2 q' p)) = _
  rw [colMaxB_apply]

/-! ## The column weights against the global rows -/

theorem lhs3_0 (i : S128x768.Idx) (q : dot_S1024x128_S1024x768_S128x768_0_0_1_1_n_n.contr.Idx) :
    (dot_S1024x128_S1024x768_S128x768_0_0_1_1_n_n.lhsIdx i q 0).val = (q ⟨0, by decide⟩).val :=
  dot_S1024x128_S1024x768_S128x768_0_0_1_1_n_n.lhsIdx_val_of_single rfl i q
theorem lhs3_1 (i : S128x768.Idx) (q : dot_S1024x128_S1024x768_S128x768_0_0_1_1_n_n.contr.Idx) :
    (dot_S1024x128_S1024x768_S128x768_0_0_1_1_n_n.lhsIdx i q 1).val = (i 0).val := by
  unfold DotDims.lhsIdx
  rw [dif_neg (show ¬(1 : Fin S1024x128.rank) ∈ dot_S1024x128_S1024x768_S128x768_0_0_1_1_n_n.lhsBatch by decide), dif_pos (show (1 : Fin S1024x128.rank) ∈ dot_S1024x128_S1024x768_S128x768_0_0_1_1_n_n.lhsNonContracting by decide)]
  rfl
theorem rhs3_0 (i : S128x768.Idx) (q : dot_S1024x128_S1024x768_S128x768_0_0_1_1_n_n.contr.Idx) :
    (dot_S1024x128_S1024x768_S128x768_0_0_1_1_n_n.rhsIdx i q 0).val = (q ⟨0, by decide⟩).val :=
  dot_S1024x128_S1024x768_S128x768_0_0_1_1_n_n.rhsIdx_val_of_single rfl i q
theorem rhs3_1 (i : S128x768.Idx) (q : dot_S1024x128_S1024x768_S128x768_0_0_1_1_n_n.contr.Idx) :
    (dot_S1024x128_S1024x768_S128x768_0_0_1_1_n_n.rhsIdx i q 1).val = (i 1).val := by
  unfold DotDims.rhsIdx
  rw [dif_neg (show ¬(1 : Fin S1024x768.rank) ∈ dot_S1024x128_S1024x768_S128x768_0_0_1_1_n_n.rhsBatch by decide), dif_pos (show (1 : Fin S1024x768.rank) ∈ dot_S1024x128_S1024x768_S128x768_0_0_1_1_n_n.rhsNonContracting by decide)]
  rfl

/-- The block product contracting the rows of both operands, into the zero block: entry (p, d) is the sum over q
    of left (q, p) times right (q, d). -/
theorem matmul3_apply (A : FVec Ideal S1024x128 .bf16) (B : FVec Ideal S1024x768 .bf16) (p : Fin 128) (d : Fin 768) :
    FloatOps.matmul dot_S1024x128_S1024x768_S128x768_0_0_1_1_n_n none A B (constant (F := Ideal) S128x768 .f32 0x00000000#32) (ix2 p d)
      = ∑ q : Fin 1024, A (ix2 q p) * B (ix2 q d) := by
  rw [Ideal.matmul_constant_zero_apply, ← Equiv.sum_comp (contrEquiv1 dot_S1024x128_S1024x768_S128x768_0_0_1_1_n_n 1024 rfl rfl).symm]
  refine Finset.sum_congr rfl fun k _ => ?_
  have hk := contrEquiv1_symm_val dot_S1024x128_S1024x768_S128x768_0_0_1_1_n_n 1024 rfl rfl k
  have el : dot_S1024x128_S1024x768_S128x768_0_0_1_1_n_n.lhsIdx (ix2 p d) ((contrEquiv1 dot_S1024x128_S1024x768_S128x768_0_0_1_1_n_n 1024 rfl rfl).symm k) = ix2 k p := funext fun a => Fin.ext (by
    match a with
    | ⟨0, _⟩ => exact (lhs3_0 _ _).trans hk
    | ⟨1, _⟩ => exact lhs3_1 _ _)
  have er : dot_S1024x128_S1024x768_S128x768_0_0_1_1_n_n.rhsIdx (ix2 p d) ((contrEquiv1 dot_S1024x128_S1024x768_S128x768_0_0_1_1_n_n 1024 rfl rfl).symm k) = ix2 k d := funext fun a => Fin.ext (by
    match a with
    | ⟨0, _⟩ => exact (rhs3_0 _ _).trans hk
    | ⟨1, _⟩ => exact rhs3_1 _ _)
  rw [el, er]

/-- The kernel's second attention payload is the column softmax of its score block against the global rows. -/
theorem pay6_eq (v19 : Vec Ideal S1024x128 .f32) (v30 : Vec Ideal S1024x768 .bf16) :
    k0_pay6 (F := Ideal) v19 v30
      = shapeCast S1x128x768
          (FloatOps.matmul (φ₂ := .bf16) dot_S1024x128_S1024x768_S128x768_0_0_1_1_n_n none (colWeights v19) v30 (constant (F := Ideal) S128x768 .f32 0x00000000#32))
          shapeCasts_S128x768_S1x128x768 := rfl

/-- Row p of the second attention payload: local row p attends over the 1024 global rows. -/
theorem pay6_apply (v19 : Vec Ideal S1024x128 .f32) (v30 : Vec Ideal S1024x768 .bf16) (p : Fin 128) (d : Fin 768) :
    k0_pay6 (F := Ideal) v19 v30 (ix3 0 p d)
      = Cert.Attn.attend (fun q : Fin 1024 => v19 (ix2 q p)) (fun q => v30 (ix2 q d)) := by
  rw [pay6_eq]
  refine (shapeCast_ab_1ab_apply _ shapeCasts_S128x768_S1x128x768 0 p d).trans ?_
  refine (matmul3_apply _ _ p d).trans ?_
  unfold Cert.Attn.attend
  exact Finset.sum_congr rfl fun q _ => congrArg (· * v30 (ix2 q d)) (colWeights_apply v19 q p)

end Cert.KernelIdeal.Pay

end
-- ==== Proof.Block.lean ====
import proofs.«152790_j51256139710851_2_alg».proof.Proof.Trips
import proofs.«152790_j51256139710851_2_alg».proof.Proof.Spec
import proofs.«152790_j51256139710851_2_alg».proof.Proof.Payload
import proofs.«152790_j51256139710851_2_alg».proof.Proof.BlockSpec
import Idealize.ShloMosaic.Lib.Pipeline.Value
import Idealize.ShloMosaic.Lib.ValueIdx

/-
  Each piece a loop trip stores agrees with one function of the block index.

  The two target functions are those of the block specification: the output block is the specification's result for
  one batch entry, the similarity scratch after the first loop is the inner products of the global and local rows.
  Trip k of the first loop stores rows 128k .. 128k+127 of both, trip j of the second loop stores rows
  1024+128j .. 1024+128j+127 of the output block: each stored piece holds the target function at the indices it is
  stored at, and the pieces of all trips cover their arrays.
-/

set_option maxRecDepth 16384

noncomputable section

open Idealize.ShloMosaic Idealize.ShloMosaic.TcCoe Idealize.ShloMosaic.Tactic Idealize.ShloMosaic.ValueIdx
open Idealize.SL Idealize.SL.Sem
open Cert.KernelIdeal Cert.KernelIdeal.Gen

open Cert.KernelIdeal.Trips
open scoped BigOperators

namespace Cert.KernelIdeal.Block

/-- Trip k of the first loop reads rows 128k .. 128k+127 of the global block. -/
theorem rows_read (arg1 : Memref sig .tc .vmem S1x1024x768 .f32) (harg1 : arg1.IsWhole) (x0 : Vec Ideal S1x1024x768 .f32)
    (k : Fin k0_t1_loop.trips) (p : Fin 128) (d : Fin 768) (h : 128 * k.val + p.val < 1024) :
    arg1.view.readAt (Elt Ideal) (Rect.unit (s := S1x1024x768) (k0_off1 k) S1x128x768.size (k0_off1_inb k)).toLoadRect (harg1.unread x0) (ix3 0 p d)
      = x0 (ix3 0 ⟨128 * k.val + p.val, h⟩ d) := by
  rw [View.readAt_eq_ld, harg1.read_unread]
  show x0 _ = x0 _
  refine congrArg x0 (funext fun a => Fin.ext ?_)
  have e := k0_off1_eq k
  match a with
  | ⟨0, _⟩ => show k0_off1 k 0 + 1 * 0 = 0; rw [e]; rfl
  | ⟨1, _⟩ => show k0_off1 k 1 + 1 * p.val = 128 * k.val + p.val; rw [e]; simp
  | ⟨2, _⟩ => show k0_off1 k 2 + 1 * d.val = d.val; rw [e]; simp

/-- A load of the whole local block reads it. -/
theorem local_read (arg2 : Memref sig .tc .vmem S1x2048x768 .f32) (harg2 : arg2.IsWhole) (x1 : Vec Ideal S1x2048x768 .f32) (y : S1x2048x768.Idx) :
    arg2.view.readAt (Elt Ideal) (Rect.unit (s := S1x2048x768) ![0, 0, 0] S1x2048x768.size inb_S1x2048x768_S1x2048x768_0_0_0).toLoadRect (harg2.unread x1) y
      = x1 y := by
  rw [View.readAt_eq_ld, harg2.read_unread]
  show x1 _ = x1 _
  refine congrArg x1 (funext fun a => Fin.ext ?_)
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

/-- Trip j of the second loop reads columns 128j .. 128j+127 of the similarity scratch. -/
theorem cols_read (arg4 : Memref sig .tc .vmem S1024x2048 .f32) (X4 : BufTy.Contents (Elt Ideal) arg4.view.ty)
    (j : Fin k0_t2_loop.trips) (q : Fin 1024) (p : Fin 128) (h : 128 * j.val + p.val < 2048) :
    arg4.view.readAt (Elt Ideal) (Rect.unit (s := S1024x2048) (k0_off4 j) S1024x128.size (k0_off4_inb j)).toLoadRect X4 (ix2 q p)
      = arg4.view.read (Elt Ideal) X4 (ix2 q ⟨128 * j.val + p.val, h⟩) := by
  rw [View.readAt_eq_ld]
  show arg4.view.read (Elt Ideal) X4 _ = arg4.view.read (Elt Ideal) X4 _
  refine congrArg (arg4.view.read (Elt Ideal) X4) (funext fun a => Fin.ext ?_)
  have e := k0_off4_eq j
  match a with
  | ⟨0, _⟩ => show k0_off4 j 0 + 1 * q.val = q.val; rw [e]; simp
  | ⟨1, _⟩ => show k0_off4 j 1 + 1 * p.val = 128 * j.val + p.val; rw [e]; simp

/-- A load of a whole two-axis scratch reads its contents. -/
theorem whole2_read {R C : Nat} {e : EltTy} (a : Memref sig .tc .vmem ⟨2, ![R, C]⟩ e) (X : BufTy.Contents (Elt Ideal) a.view.ty)
    (inb : ∀ b, (![0, 0] : Fin 2 → Nat) b + (⟨2, ![R, C]⟩ : Shape).size b ≤ (⟨2, ![R, C]⟩ : Shape).size b) (y : (⟨2, ![R, C]⟩ : Shape).Idx) :
    a.view.readAt (Elt Ideal) (Rect.unit (s := ⟨2, ![R, C]⟩) ![0, 0] (⟨2, ![R, C]⟩ : Shape).size inb).toLoadRect X y
      = a.view.read (Elt Ideal) X y := by
  rw [View.readAt_eq_ld]
  show a.view.read (Elt Ideal) X _ = a.view.read (Elt Ideal) X _
  refine congrArg (a.view.read (Elt Ideal) X) (funext fun b => Fin.ext ?_)
  match b with
  | ⟨0, _⟩ => show 0 + 1 * (y 0).val = (y 0).val; omega
  | ⟨1, _⟩ => show 0 + 1 * (y 1).val = (y 1).val; omega

/-! ## Where a piece's own index lands -/

/-- Trip k's piece of the similarity scratch places its (p, c) at (128k + p, c). -/
theorem emb_sim (k : Fin k0_t1_loop.trips) (p : Fin 128) (c : Fin 2048) (h : 128 * k.val + p.val < 1024) :
    (Rect.unit (s := S1024x2048) (k0_off2 k) S128x2048.size (k0_off2_inb k)).emb (ix2 p c)
      = ix2 (⟨128 * k.val + p.val, h⟩ : Fin 1024) c := by
  funext a; apply Fin.ext
  have e := k0_off2_eq k
  match a with
  | ⟨0, _⟩ => show k0_off2 k 0 + 1 * p.val = 128 * k.val + p.val; rw [e]; simp
  | ⟨1, _⟩ => show k0_off2 k 1 + 1 * c.val = c.val; rw [e]; simp

/-- Trip k's piece of the output block places its (0, p, d) at (0, 128k + p, d). -/
theorem emb_out1 (k : Fin k0_t1_loop.trips) (p : Fin 128) (d : Fin 768) (h : 128 * k.val + p.val < 3072) :
    (Rect.unit (s := S1x3072x768) (k0_off3 k) S1x128x768.size (k0_off3_inb k)).emb (ix3 (0 : Fin 1) p d)
      = ix3 (0 : Fin 1) (⟨128 * k.val + p.val, h⟩ : Fin 3072) d := by
  funext a; apply Fin.ext
  have e := k0_off3_eq k
  match a with
  | ⟨0, _⟩ => show k0_off3 k 0 + 1 * 0 = 0; rw [e]; rfl
  | ⟨1, _⟩ => show k0_off3 k 1 + 1 * p.val = 128 * k.val + p.val; rw [e]; simp
  | ⟨2, _⟩ => show k0_off3 k 2 + 1 * d.val = d.val; rw [e]; simp

/-- Trip j's piece of the output block places its (0, p, d) at (0, 128j + 1024 + p, d). -/
theorem emb_out2 (j : Fin k0_t2_loop.trips) (p : Fin 128) (d : Fin 768) (h : 128 * j.val + 1024 + p.val < 3072) :
    (Rect.unit (s := S1x3072x768) (k0_off5 j) S1x128x768.size (k0_off5_inb j)).emb (ix3 (0 : Fin 1) p d)
      = ix3 (0 : Fin 1) (⟨128 * j.val + 1024 + p.val, h⟩ : Fin 3072) d := by
  funext a; apply Fin.ext
  have e := k0_off5_eq j
  match a with
  | ⟨0, _⟩ => show k0_off5 j 0 + 1 * 0 = 0; rw [e]; rfl
  | ⟨1, _⟩ => show k0_off5 j 1 + 1 * p.val = 128 * j.val + 1024 + p.val; rw [e]; simp
  | ⟨2, _⟩ => show k0_off5 j 2 + 1 * d.val = d.val; rw [e]; simp

theorem lt_trips1 (k : Fin k0_t1_loop.trips) : k.val < 8 := Nat.lt_of_lt_of_eq k.isLt trips1

theorem lt_trips2 (j : Fin k0_t2_loop.trips) : j.val < 16 := Nat.lt_of_lt_of_eq j.isLt trips2

/-! ## The pieces agree with the target functions -/

/-- The piece trip k stores into the similarity scratch holds the similarity at the indices it is stored at. -/
theorem simPiece_agrees (arg1 : Memref sig .tc .vmem S1x1024x768 .f32) (harg1 : arg1.IsWhole)
    (arg2 : Memref sig .tc .vmem S1x2048x768 .f32) (harg2 : arg2.IsWhole)
    (x0 : Vec Ideal S1x1024x768 .f32) (x1 : Vec Ideal S1x2048x768 .f32) (k : Fin k0_t1_loop.trips)
    (x : (simPiece (F := Ideal) arg1 arg2 (harg1.unread x0) (harg2.unread x1) k).1.shape.Idx) :
    (simPiece (F := Ideal) arg1 arg2 (harg1.unread x0) (harg2.unread x1) k).2 x
      = simf x0 x1 ((simPiece (F := Ideal) arg1 arg2 (harg1.unread x0) (harg2.unread x1) k).1.emb x) := by
  obtain ⟨p, c, rfl⟩ : ∃ (p : Fin 128) (c : Fin 2048), x = ix2 p c := ⟨x 0, x 1, eq_ix2 x⟩
  have hk := lt_trips1 k
  have h : 128 * k.val + p.val < 1024 := by have := p.isLt; omega
  refine Eq.trans ?_ (congrArg (simf x0 x1) (emb_sim k p c h)).symm
  refine (Pay.pay4_apply _ _ p c).trans ?_
  show _ = ∑ d : Fin 768, x0 (ix3 0 ⟨128 * k.val + p.val, h⟩ d) * x1 (ix3 0 c d)
  refine Finset.sum_congr rfl fun d _ => ?_
  rw [rows_read arg1 harg1 x0 k p d h, local_read arg2 harg2 x1 (ix3 0 c d)]

/-- The piece trip k of the first loop stores into the output block holds the target at the indices it is stored at. -/
theorem outPiece1_agrees (arg1 : Memref sig .tc .vmem S1x1024x768 .f32) (harg1 : arg1.IsWhole)
    (arg2 : Memref sig .tc .vmem S1x2048x768 .f32) (harg2 : arg2.IsWhole) (arg6 : Memref sig .tc .vmem S2048x768 .bf16)
    (x0 : Vec Ideal S1x1024x768 .f32) (x1 : Vec Ideal S1x2048x768 .f32)
    (X6 : BufTy.Contents (Elt Ideal) arg6.view.ty)
    (hX6 : ∀ (c : Fin 2048) (d : Fin 768), arg6.view.read (Elt Ideal) X6 (ix2 c d) = x1 (ix3 0 c d))
    (k : Fin k0_t1_loop.trips)
    (x : (outPiece1 (F := Ideal) arg1 arg2 arg6 (harg1.unread x0) (harg2.unread x1) X6 k).1.shape.Idx) :
    (outPiece1 (F := Ideal) arg1 arg2 arg6 (harg1.unread x0) (harg2.unread x1) X6 k).2 x
      = blk x0 x1 ((outPiece1 (F := Ideal) arg1 arg2 arg6 (harg1.unread x0) (harg2.unread x1) X6 k).1.emb x) := by
  obtain ⟨z, p, d, rfl⟩ : ∃ (z : Fin 1) (p : Fin 128) (d : Fin 768), x = ix3 z p d := ⟨x 0, x 1, x 2, eq_ix3 x⟩
  obtain rfl : z = 0 := Subsingleton.elim _ _
  have hk := lt_trips1 k
  have h : 128 * k.val + p.val < 1024 := by have := p.isLt; omega
  have h3 : 128 * k.val + p.val < 3072 := by omega
  refine Eq.trans ?_ (congrArg (blk x0 x1) (emb_out1 k p d h3)).symm
  refine (Pay.pay5_apply _ _ _ p d).trans ?_
  refine Eq.trans ?_ (Cert.Attn.out_lo (fun r d => x0 (ix3 0 r d)) (fun c d => x1 (ix3 0 c d))
    (⟨128 * k.val + p.val, h3⟩ : Fin 3072) d h).symm
  refine congrArg₂ Cert.Attn.attend (funext fun c => ?_) (funext fun c => ?_)
  · show _ = ∑ d' : Fin 768, x0 (ix3 0 ⟨128 * k.val + p.val, h⟩ d') * x1 (ix3 0 c d')
    refine Finset.sum_congr rfl fun d' _ => ?_
    rw [rows_read arg1 harg1 x0 k p d' h, local_read arg2 harg2 x1 (ix3 0 c d')]
  · exact (whole2_read arg6 X6 _ (ix2 c d)).trans (hX6 c d)

/-- The piece trip j of the second loop stores into the output block holds the target at the indices it is stored at. -/
theorem outPiece2_agrees (arg4 : Memref sig .tc .vmem S1024x2048 .f32) (arg5 : Memref sig .tc .vmem S1024x768 .bf16)
    (x0 : Vec Ideal S1x1024x768 .f32) (x1 : Vec Ideal S1x2048x768 .f32)
    (X4 : BufTy.Contents (Elt Ideal) arg4.view.ty) (hX4 : ∀ y, arg4.view.read (Elt Ideal) X4 y = simf x0 x1 y)
    (X5 : BufTy.Contents (Elt Ideal) arg5.view.ty)
    (hX5 : ∀ (q : Fin 1024) (d : Fin 768), arg5.view.read (Elt Ideal) X5 (ix2 q d) = x0 (ix3 0 q d))
    (j : Fin k0_t2_loop.trips)
    (x : (outPiece2 (F := Ideal) arg4 arg5 X4 X5 j).1.shape.Idx) :
    (outPiece2 (F := Ideal) arg4 arg5 X4 X5 j).2 x
      = blk x0 x1 ((outPiece2 (F := Ideal) arg4 arg5 X4 X5 j).1.emb x) := by
  obtain ⟨z, p, d, rfl⟩ : ∃ (z : Fin 1) (p : Fin 128) (d : Fin 768), x = ix3 z p d := ⟨x 0, x 1, x 2, eq_ix3 x⟩
  obtain rfl : z = 0 := Subsingleton.elim _ _
  have hj := lt_trips2 j
  have h : 128 * j.val + p.val < 2048 := by have := p.isLt; omega
  have h3 : 128 * j.val + 1024 + p.val < 3072 := by omega
  have hn : ¬ (128 * j.val + 1024 + p.val < 1024) := by omega
  refine Eq.trans ?_ (congrArg (blk x0 x1) (emb_out2 j p d h3)).symm
  refine (Pay.pay6_apply _ _ p d).trans ?_
  refine Eq.trans ?_ (Cert.Attn.out_hi (fun r d => x0 (ix3 0 r d)) (fun c d => x1 (ix3 0 c d))
    (⟨128 * j.val + 1024 + p.val, h3⟩ : Fin 3072) d hn).symm
  refine congrArg₂ Cert.Attn.attend (funext fun q => ?_) (funext fun q => ?_)
  · refine (cols_read arg4 X4 j q p h).trans ((hX4 _).trans ?_)
    exact congrArg (Cert.Attn.sim (fun r d => x0 (ix3 0 r d)) (fun c d => x1 (ix3 0 c d)) q)
      (Fin.ext (by show 128 * j.val + p.val = 128 * j.val + 1024 + p.val - 1024; omega))
  · exact (whole2_read arg5 X5 _ (ix2 q d)).trans (hX5 q d)

/-! ## The pieces cover their arrays -/

/-- Every entry of the similarity scratch lies in the piece of the trip its row belongs to. -/
theorem sim_covered (arg1 : Memref sig .tc .vmem S1x1024x768 .f32) (arg2 : Memref sig .tc .vmem S1x2048x768 .f32)
    (X1 : BufTy.Contents (Elt Ideal) arg1.view.ty) (X2 : BufTy.Contents (Elt Ideal) arg2.view.ty) (y : S1024x2048.Idx) :
    ∃ (k : ℕ) (h : k < k0_t1_loop.trips), y ∈ (simPiece (F := Ideal) arg1 arg2 X1 X2 ⟨k, h⟩).1.set := by
  have hy0 : (y 0).val < 1024 := (y 0).isLt
  have hy1 : (y 1).val < 2048 := (y 1).isLt
  have hk : (y 0).val / 128 < k0_t1_loop.trips := by rw [trips1]; omega
  refine ⟨(y 0).val / 128, hk, ?_⟩
  show y ∈ (Rect.unit (s := S1024x2048) (k0_off2 ⟨(y 0).val / 128, hk⟩) S128x2048.size (k0_off2_inb ⟨(y 0).val / 128, hk⟩)).set
  rw [Rect.mem_set_unit]
  intro a
  have e := k0_off2_eq ⟨(y 0).val / 128, hk⟩
  match a with
  | ⟨0, _⟩ => rw [e]; show 128 * ((y 0).val / 128) ≤ (y 0).val ∧ (y 0).val < 128 * ((y 0).val / 128) + 128; omega
  | ⟨1, _⟩ => rw [e]; show 0 ≤ (y 1).val ∧ (y 1).val < 0 + 2048; omega

/-- Every entry of the first 1024 rows of the output block lies in a piece of the first loop. -/
theorem out_covered_lo (arg1 : Memref sig .tc .vmem S1x1024x768 .f32) (arg2 : Memref sig .tc .vmem S1x2048x768 .f32)
    (arg6 : Memref sig .tc .vmem S2048x768 .bf16)
    (X1 : BufTy.Contents (Elt Ideal) arg1.view.ty) (X2 : BufTy.Contents (Elt Ideal) arg2.view.ty)
    (X6 : BufTy.Contents (Elt Ideal) arg6.view.ty) (y : S1x3072x768.Idx) (hy : (y 1).val < 1024) :
    ∃ (k : ℕ) (h : k < k0_t1_loop.trips), y ∈ (outPiece1 (F := Ideal) arg1 arg2 arg6 X1 X2 X6 ⟨k, h⟩).1.set := by
  have hy0 : (y 0).val < 1 := (y 0).isLt
  have hy2 : (y 2).val < 768 := (y 2).isLt
  have hk : (y 1).val / 128 < k0_t1_loop.trips := by rw [trips1]; omega
  refine ⟨(y 1).val / 128, hk, ?_⟩
  show y ∈ (Rect.unit (s := S1x3072x768) (k0_off3 ⟨(y 1).val / 128, hk⟩) S1x128x768.size (k0_off3_inb ⟨(y 1).val / 128, hk⟩)).set
  rw [Rect.mem_set_unit]
  intro a
  have e := k0_off3_eq ⟨(y 1).val / 128, hk⟩
  match a with
  | ⟨0, _⟩ => rw [e]; show 0 ≤ (y 0).val ∧ (y 0).val < 0 + 1; omega
  | ⟨1, _⟩ => rw [e]; show 128 * ((y 1).val / 128) ≤ (y 1).val ∧ (y 1).val < 128 * ((y 1).val / 128) + 128; omega
  | ⟨2, _⟩ => rw [e]; show 0 ≤ (y 2).val ∧ (y 2).val < 0 + 768; omega

/-- Every entry of the last 2048 rows of the output block lies in a piece of the second loop. -/
theorem out_covered_hi (arg4 : Memref sig .tc .vmem S1024x2048 .f32) (arg5 : Memref sig .tc .vmem S1024x768 .bf16)
    (X4 : BufTy.Contents (Elt Ideal) arg4.view.ty) (X5 : BufTy.Contents (Elt Ideal) arg5.view.ty)
    (y : S1x3072x768.Idx) (hy : ¬ (y 1).val < 1024) :
    ∃ (j : ℕ) (h : j < k0_t2_loop.trips), y ∈ (outPiece2 (F := Ideal) arg4 arg5 X4 X5 ⟨j, h⟩).1.set := by
  have hy0 : (y 0).val < 1 := (y 0).isLt
  have hy1 : (y 1).val < 3072 := (y 1).isLt
  have hy2 : (y 2).val < 768 := (y 2).isLt
  have hj : ((y 1).val - 1024) / 128 < k0_t2_loop.trips := by rw [trips2]; omega
  refine ⟨((y 1).val - 1024) / 128, hj, ?_⟩
  show y ∈ (Rect.unit (s := S1x3072x768) (k0_off5 ⟨((y 1).val - 1024) / 128, hj⟩) S1x128x768.size (k0_off5_inb ⟨((y 1).val - 1024) / 128, hj⟩)).set
  rw [Rect.mem_set_unit]
  intro a
  have e := k0_off5_eq ⟨((y 1).val - 1024) / 128, hj⟩
  match a with
  | ⟨0, _⟩ => rw [e]; show 0 ≤ (y 0).val ∧ (y 0).val < 0 + 1; omega
  | ⟨1, _⟩ =>
    rw [e]
    show 128 * (((y 1).val - 1024) / 128) + 1024 ≤ (y 1).val ∧ (y 1).val < 128 * (((y 1).val - 1024) / 128) + 1024 + 128
    omega
  | ⟨2, _⟩ => rw [e]; show 0 ≤ (y 2).val ∧ (y 2).val < 0 + 768; omega

end Cert.KernelIdeal.Block

end
-- ==== Proof.OutBlock.lean ====
/-
  What the kernel body leaves in a grid point's output block.

  The run of the body found 24 stored pieces for the output block: 16 from the second loop and 8 from the first.
  The first loop's piece k holds rows 128k .. 128k+127, computed from the global rows it loaded, the local block and
  the copy of the local block made before the loops; the second loop's piece j holds rows 1024+128j .. 1024+128j+127,
  computed from columns 128j .. 128j+127 of the similarity scratch and the copy of the global block. The two copies
  read back as the blocks themselves, the scratch after the first loop reads as the similarity matrix (its eight
  stores agree with it and cover it), so every piece agrees with the block function of the two input blocks; the
  pieces cover the block; hence the block is that function.
-/
import proofs.«152790_j51256139710851_2_alg».proof.Proof.KernelIdealFrame
import proofs.«152790_j51256139710851_2_alg».proof.Proof.Trips
import proofs.«152790_j51256139710851_2_alg».proof.Proof.BlockSpec
import proofs.«152790_j51256139710851_2_alg».proof.Proof.Payload
import proofs.«152790_j51256139710851_2_alg».proof.Proof.Block
import Idealize.ShloMosaic.Lib.Pipeline.Value
import Idealize.ShloMosaic.Lib.ValueIdx

set_option maxRecDepth 16384

noncomputable section

open Idealize.ShloMosaic Idealize.ShloMosaic.TcCoe Idealize.ShloMosaic.Tactic Idealize.ShloMosaic.ValueIdx
open Idealize.SL Idealize.SL.Sem
open Cert.KernelIdeal Cert.KernelIdeal.Gen Cert.KernelIdeal.GenP

namespace Cert.KernelIdeal.OutBlock

open Cert.KernelIdeal.Trips Cert.KernelIdeal.Block
open scoped BigOperators

/-- A load of a whole three-axis block with a leading unit axis reads the block. -/
theorem whole3_read {R : Nat} (a : Memref sig .tc .vmem ⟨3, ![1, R, 768]⟩ .f32) (ha : a.IsWhole) (x : Vec Ideal ⟨3, ![1, R, 768]⟩ .f32)
    (inb : ∀ b, (![0, 0, 0] : Fin 3 → Nat) b + (⟨3, ![1, R, 768]⟩ : Shape).size b ≤ (⟨3, ![1, R, 768]⟩ : Shape).size b)
    (y : (⟨3, ![1, R, 768]⟩ : Shape).Idx) :
    a.view.readAt (Elt Ideal) (Rect.unit (s := ⟨3, ![1, R, 768]⟩) ![0, 0, 0] (⟨3, ![1, R, 768]⟩ : Shape).size inb).toLoadRect (ha.unread x) y = x y := by
  rw [View.readAt_eq_ld, ha.read_unread]
  show x _ = x _
  refine congrArg x (funext fun b => Fin.ext ?_)
  match b with
  | ⟨0, _⟩ => show 0 + 1 * (y 0).val = (y 0).val; omega
  | ⟨1, _⟩ => show 0 + 1 * (y 1).val = (y 1).val; omega
  | ⟨2, _⟩ => show 0 + 1 * (y 2).val = (y 2).val; omega

/-- One store through a rectangle, read back at an index of the rectangle, gives the payload there. -/
theorem read_single_store {S : Shape} {e : EltTy} (v : View sig .tc .vmem S e) (f : v.ty.Contents (Elt Ideal)) (r : Rect S)
    (w : r.shape.Idx → Elt Ideal e) (x : r.shape.Idx) (y : S.Idx) (hy : y = r.emb x) :
    v.read (Elt Ideal) (v.writes (Elt Ideal) f [⟨r, w⟩]) y = w x := by
  subst hy
  exact View.read_writes_cons_emb v f r w [] x

/-- The copy of the local block the body makes before its loops holds the local block. -/
theorem localCopy_read (c : Dev nD) (arg2 : Memref sig .tc .vmem S1x2048x768 .f32) (harg2 : arg2.IsWhole)
    (arg6 : Memref sig .tc .vmem S2048x768 .bf16) (x1 : Vec Ideal S1x2048x768 .f32) (cc : Fin 2048) (d : Fin 768) :
    arg6.view.read (Elt Ideal) (arg6.view.writes (Elt Ideal) arg6.view.junk (kernelRun0_A.sl.HS2_1 (F := Ideal) c arg2 harg2 x1)) (ix2 cc d)
      = x1 (ix3 0 cc d) := by
  unfold kernelRun0_A.sl.HS2_1
  refine (read_single_store arg6.view arg6.view.junk
    (Rect.unit (s := S2048x768) ![0, 0] S2048x768.size inb_S2048x768_S2048x768_0_0) _ (ix2 cc d) (ix2 cc d)
    (funext fun a => Fin.ext (by
      match a with
      | ⟨0, _⟩ => show cc.val = 0 + 1 * cc.val; omega
      | ⟨1, _⟩ => show d.val = 0 + 1 * d.val; omega))).trans ?_
  rw [Cert.KernelIdeal.Pay.pay2_apply]
  exact whole3_read arg2 harg2 x1 _ _

/-- The copy of the global block the body makes before its loops holds the global block. -/
theorem globalCopy_read (c : Dev nD) (arg1 : Memref sig .tc .vmem S1x1024x768 .f32) (harg1 : arg1.IsWhole)
    (arg5 : Memref sig .tc .vmem S1024x768 .bf16) (x0 : Vec Ideal S1x1024x768 .f32) (q : Fin 1024) (d : Fin 768) :
    arg5.view.read (Elt Ideal) (arg5.view.writes (Elt Ideal) arg5.view.junk (kernelRun0_A.sl.HS1_1 (F := Ideal) c arg1 harg1 x0)) (ix2 q d)
      = x0 (ix3 0 q d) := by
  unfold kernelRun0_A.sl.HS1_1
  refine (read_single_store arg5.view arg5.view.junk
    (Rect.unit (s := S1024x768) ![0, 0] S1024x768.size inb_S1024x768_S1024x768_0_0) _ (ix2 q d) (ix2 q d)
    (funext fun a => Fin.ext (by
      match a with
      | ⟨0, _⟩ => show q.val = 0 + 1 * q.val; omega
      | ⟨1, _⟩ => show d.val = 0 + 1 * d.val; omega))).trans ?_
  rw [Cert.KernelIdeal.Pay.pay1_apply]
  exact whole3_read arg1 harg1 x0 _ _

/-- After the first loop the similarity scratch holds the similarity matrix: each of the eight stores agrees with it
    and together they cover the scratch. -/
theorem scratch_read (c : Dev nD) (i : grid0.Coords) (arg1 : Memref sig .tc .vmem S1x1024x768 .f32) (harg1 : arg1.IsWhole) (arg2 : Memref sig .tc .vmem S1x2048x768 .f32) (harg2 : arg2.IsWhole) (arg3 : Memref sig .tc .vmem S1x3072x768 .f32) (harg3 : arg3.IsWhole) (arg4 : Memref sig .tc .vmem S1024x2048 .f32) (harg4 : arg4.IsWhole) (arg5 : Memref sig .tc .vmem S1024x768 .bf16) (harg5 : arg5.IsWhole) (arg6 : Memref sig .tc .vmem S2048x768 .bf16) (harg6 : arg6.IsWhole)
    (x0 : Vec Ideal S1x1024x768 .f32) (x1 : Vec Ideal S1x2048x768 .f32) (X6 : BufTy.Contents (Elt Ideal) arg6.view.ty)
    (y : S1024x2048.Idx) :
    arg4.view.read (Elt Ideal) (arg4.view.writes (Elt Ideal) arg4.view.junk
      (pb_k0_t1 (F := Ideal) Variants.none c none i arg1 harg1 arg2 harg2 arg3 harg3 arg4 harg4 arg5 harg5 arg6 harg6 (harg1.unread x0) (harg2.unread x1) X6 k0_t1_loop.trips).2) y
      = simf x0 x1 y :=
  View.read_writes_apply_of_pieces arg4.view arg4.view.junk (simf x0 x1) _
    (fun p hp x => by
      obtain ⟨k, hk, -, rfl⟩ := (mem_pb1_sim Variants.none c none i arg1 harg1 arg2 harg2 arg3 harg3 arg4 harg4 arg5 harg5 arg6 harg6 _ _ X6 p _ (Nat.le_refl _)).mp hp
      exact simPiece_agrees arg1 harg1 arg2 harg2 x0 x1 ⟨k, hk⟩ x)
    y (sim_cover Variants.none c none i arg1 harg1 arg2 harg2 arg3 harg3 arg4 harg4 arg5 harg5 arg6 harg6 _ _ X6 y)

/-- What the body leaves in the output block is the block function of its two input blocks: every one of the 24
    stored pieces agrees with it, and they cover the block. -/
theorem out_block (c : Dev nD) (i : grid0.Coords) (arg1 : Memref sig .tc .vmem S1x1024x768 .f32) (harg1 : arg1.IsWhole) (arg2 : Memref sig .tc .vmem S1x2048x768 .f32) (harg2 : arg2.IsWhole) (arg3 : Memref sig .tc .vmem S1x3072x768 .f32) (harg3 : arg3.IsWhole) (arg4 : Memref sig .tc .vmem S1024x2048 .f32) (harg4 : arg4.IsWhole) (arg5 : Memref sig .tc .vmem S1024x768 .bf16) (harg5 : arg5.IsWhole) (arg6 : Memref sig .tc .vmem S2048x768 .bf16) (harg6 : arg6.IsWhole) (x0 : Vec Ideal S1x1024x768 .f32) (x1 : Vec Ideal S1x2048x768 .f32) :
    out0_A_2 (F := Ideal) c i arg1 harg1 arg2 harg2 arg3 harg3 arg4 harg4 arg5 harg5 arg6 harg6 x0 x1 = Cert.KernelIdeal.Block.blk x0 x1 := by
  funext y
  unfold out0_A_2
  refine View.read_writes_apply_of_pieces VO0_2 VO0_2.junk (blk x0 x1) _ ?_ y (cover0_A_2 c i arg1 harg1 arg2 harg2 arg3 harg3 arg4 harg4 arg5 harg5 arg6 harg6 x0 x1 y)
  intro p hp
  unfold kernelRun0_A at hp
  dsimp only at hp
  rcases List.mem_append.mp hp with h2 | h1
  · obtain ⟨j, hj, -, rfl⟩ := (mem_pb2_out Variants.none c none i arg1 harg1 arg2 harg2 arg3 harg3 arg4 harg4 arg5 harg5 arg6 harg6 _ _ p _ (Nat.le_of_eq rfl)).mp h2
    exact outPiece2_agrees arg4 arg5 x0 x1 _ (scratch_read c i arg1 harg1 arg2 harg2 arg3 harg3 arg4 harg4 arg5 harg5 arg6 harg6 x0 x1 _) _ (globalCopy_read c arg1 harg1 arg5 x0) ⟨j, hj⟩
  · obtain ⟨k, hk, -, rfl⟩ := (mem_pb1_out Variants.none c none i arg1 harg1 arg2 harg2 arg3 harg3 arg4 harg4 arg5 harg5 arg6 harg6 _ _ _ p _ (Nat.le_of_eq rfl)).mp h1
    exact outPiece1_agrees arg1 harg1 arg2 harg2 arg6 x0 x1 _ (localCopy_read c arg2 harg2 arg6 x1) ⟨k, hk⟩

end Cert.KernelIdeal.OutBlock
-- ==== Proof.Final.lean ====
/-
  The result array after the kernel's run is the specification's function of the two argument arrays.

  Each of the 32 grid points writes back one block of the result: batch entry t, whole. What point t writes back is
  the specification's result for batch entry t of the two arguments, because its two input blocks are batch entry t of
  the arguments and a block's element (0, r, d) is the array's element (t, r, d). Every index of the result lies in
  some point's block, so after the last write-back the whole array is the specification's; the arguments are never
  written.
-/
import proofs.«152790_j51256139710851_2_alg».proof.Proof.KernelIdealValue
import proofs.«152790_j51256139710851_2_alg».proof.Proof.Cover
import proofs.«152790_j51256139710851_2_alg».proof.Proof.BlockSpec
import proofs.«152790_j51256139710851_2_alg».proof.Proof.Spec
import proofs.«152790_j51256139710851_2_alg».proof.Proof.OutBlock

noncomputable section

open Cert.KernelIdeal Cert.KernelIdeal.Gen Cert.KernelIdeal.GenP Cert.KernelIdeal.ValueP Cert.KernelIdeal.Cover
open Idealize.ShloMosaic Idealize.ShloMosaic.TcCoe Idealize.SL.Sem Idealize.ShloMosaic.ValueIdx

namespace Cert.KernelIdeal.Final

variable (m : (ℓ : Loc nD τ sig) → Buf (Elt Ideal) ℓ) (ρ : Dev nD → PrngReg)

/-- What point t writes back is block t of the specification's result of the two arguments as the kernel finds them:
    the point's output block is the specification's result for its two input blocks, which are batch entry t of the
    arguments, and the block's element y sits at (t, y 1, y 2) of the result. -/
theorem flushed_eq (c : Dev nD) (t : Fin cfg0.N) :
    (dats m 0 c).flushed 2 t
      = ((cfg0.win 2).blk t).view.read (Elt Ideal) (Cert.Attn.G (V m c main_arg0) (V m c main_arg1)) := by
  rw [flushed2_A, Cert.KernelIdeal.OutBlock.out_block]
  have hN : cfg0.N = 32 := N_0
  have ht : t.val < 32 := by have := t.isLt; omega
  have h0 : (fun (r : Fin 1024) (d : Fin 768) => iblk m c 0 t (ix3 (0 : Fin 1) r d : S1x1024x768.Idx))
      = fun r d => V m c main_arg0 (ix3 (⟨t.val, ht⟩ : Fin 32) r d : S32x1024x768.Idx) :=
    funext fun r => funext fun d => iblk0_apply m c t ht r d
  have h1 : (fun (q : Fin 2048) (d : Fin 768) => iblk m c 1 t (ix3 (0 : Fin 1) q d : S1x2048x768.Idx))
      = fun q d => V m c main_arg1 (ix3 (⟨t.val, ht⟩ : Fin 32) q d : S32x2048x768.Idx) :=
    funext fun q => funext fun d => iblk1_apply m c t ht q d
  funext y
  have hG : Cert.Attn.G (V m c main_arg0) (V m c main_arg1) (((cfg0.win 2).blk t).view.emb y)
      = Cert.Attn.out (fun r d => V m c main_arg0 (ix3 (⟨t.val, ht⟩ : Fin 32) r d : S32x1024x768.Idx))
          (fun q d => V m c main_arg1 (ix3 (⟨t.val, ht⟩ : Fin 32) q d : S32x2048x768.Idx)) (y 1) (y 2) := by
    rw [blk2_emb t ht y]; rfl
  show Cert.Attn.out (fun r d => iblk m c 0 t (ix3 (0 : Fin 1) r d : S1x1024x768.Idx))
      (fun q d => iblk m c 1 t (ix3 (0 : Fin 1) q d : S1x2048x768.Idx)) (y 1) (y 2)
    = Cert.Attn.G (V m c main_arg0) (V m c main_arg1) (((cfg0.win 2).blk t).view.emb y)
  rw [hG]
  exact congrArg₂ (fun g l => Cert.Attn.out g l (y 1) (y 2)) h0 h1

/-- The result array after the run: every index is in some point's block, so the array is the specification's
    function of the arguments as launched. -/
theorem final (c : Dev nD) :
    (dats m 0 c).arrAt 2 cfg0.N
      = Cert.Attn.G (m ((c : Thread nD τ).loc main_arg0)) (m ((c : Thread nD τ).loc main_arg1)) :=
  (dats m 0 c).arrAt_eq_of_cover 2 (Cert.Attn.G (V m c main_arg0) (V m c main_arg1)) (fun t _ => flushed_eq m c t) covered

/-- The run, read: the result array holds the specification's function of the arguments, and the arguments are as
    launched. -/
theorem run : θ_run defs (onTc (τ := τ) (main (F := Ideal))) ⟨m, fun _ => 0, ρ⟩ fun r => ∀ c : Dev nD,
      r.2.mem ((c : Thread nD τ).loc main_v0)
        = Cert.Attn.G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Final

end
-- ==== Proof.RefValue.lean ====
/-
  The reference's result term is the specification.

  Each stage of the reference is read at an index with explicit coordinates: the similarity is the inner product over the
  768 features, the row (column) maximum is the fold of max from minus infinity, the weights are the exponentials over
  their sum, the two attention products are the weighted sums, and the concatenation puts the 1024 global rows before
  the 2048 local ones.
-/
import proofs.«152790_j51256139710851_2_alg».proof.Proof.Spec
import proofs.«152790_j51256139710851_2_alg».proof.Proof.RefRead
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.RefValue

open Idealize.ShloMosaic Idealize.ShloMosaic.ValueIdx
open Cert.ReferenceIdeal Cert.ReferenceIdeal.Gen Cert.ReferenceIdeal.ReadP
open scoped BigOperators

/-- The global rows' array type. -/
abbrev Arr0 : Type := (⟨S32x1024x768, .f32⟩ : BufTy).Contents (Elt Ideal)
/-- The local rows' array type. -/
abbrev Arr1 : Type := (⟨S32x2048x768, .f32⟩ : BufTy).Contents (Elt Ideal)

/-- Batch entry b's global rows. -/
abbrev gOf (a0 : Arr0) (b : Fin 32) : Fin 1024 → Fin 768 → EReal := fun r d => a0 (ix3 b r d)
/-- Batch entry b's local rows. -/
abbrev lOf (a1 : Arr1) (b : Fin 32) : Fin 2048 → Fin 768 → EReal := fun c d => a1 (ix3 b c d)

/-! ## The similarity -/

/-- The first product at (b, r, c) is the inner product of global row r and local row c. -/
theorem sim_apply (a0 : Arr0) (a1 : Arr1) (b : Fin 32) (r : Fin 1024) (c : Fin 2048) :
    val_main_v0 (F := Ideal) a0 a1 (ix3 b r c) = Cert.Attn.sim (gOf a0 b) (lOf a1 b) r c := by
  rw [val_main_v0_apply]
  unfold Cert.Attn.sim
  refine Finset.sum_congr rfl fun k _ => ?_
  have el : lidx_main_v0 (ix3 b r c) k = ix3 b r k :=
    funext fun a => Fin.ext (by match a with | ⟨0, _⟩ => rfl | ⟨1, _⟩ => rfl | ⟨2, _⟩ => rfl)
  have er : ridx_main_v0 (ix3 b r c) k = ix3 b c k :=
    funext fun a => Fin.ext (by match a with | ⟨0, _⟩ => rfl | ⟨1, _⟩ => rfl | ⟨2, _⟩ => rfl)
  rw [el, er]

/-- The transposed similarity at (b, c, r) is the similarity at (b, r, c). -/
theorem simT_apply (a0 : Arr0) (a1 : Arr1) (b : Fin 32) (c : Fin 2048) (r : Fin 1024) :
    val_main_v13 (F := Ideal) a0 a1 (ix3 b c r) = Cert.Attn.sim (gOf a0 b) (lOf a1 b) r c := by
  rw [val_main_v13_apply]
  have e : idx_main_v13 (ix3 b c r) = ix3 b r c :=
    funext fun a => Fin.ext (by match a with | ⟨0, _⟩ => rfl | ⟨1, _⟩ => rfl | ⟨2, _⟩ => rfl)
  rw [e]
  exact sim_apply a0 a1 b r c

/-! ## The maxima -/

/-- From minus infinity the maximum is the other argument. -/
theorem max_negInf (y : EReal) : max Cert.Attn.negInf y = y := by
  simp [Ideal.ofBits, Ideal.ieee]

theorem red_rows : S32x1024x2048.Reduces [2] S32x1024 := by decide

theorem red_cols : S32x2048x1024.Reduces [2] S32x2048 := by decide

/-- The reduced index (b, r) with coordinate k put back on the last axis is (b, r, k). -/
theorem lift_rows (b : Fin 32) (r : Fin 1024) (k : Fin (S32x1024x2048.size 2)) :
    red_rows.lift (ix2 b r) k = ix3 b r (⟨k.val, k.isLt⟩ : Fin 2048) := by
  funext c; apply Fin.ext
  fin_cases c <;> rfl

/-- The reduced index (b, c) with coordinate k put back on the last axis is (b, c, k). -/
theorem lift_cols (b : Fin 32) (c : Fin 2048) (k : Fin (S32x2048x1024.size 2)) :
    red_cols.lift (ix2 b c) k = ix3 b c (⟨k.val, k.isLt⟩ : Fin 1024) := by
  funext a; apply Fin.ext
  fin_cases a <;> rfl

/-- The scores of global row r against every local row. -/
abbrev rowScores (a0 : Arr0) (a1 : Arr1) (b : Fin 32) (r : Fin 1024) : Fin 2048 → EReal :=
  fun c => Cert.Attn.sim (gOf a0 b) (lOf a1 b) r c

/-- The scores of local row c against every global row. -/
abbrev colScores (a0 : Arr0) (a1 : Arr1) (b : Fin 32) (c : Fin 2048) : Fin 1024 → EReal :=
  fun q => Cert.Attn.sim (gOf a0 b) (lOf a1 b) q c

/-- The reduce with a maximum body over the last axis of the similarity, at (b, r), is the maximum of row r's scores. -/
theorem rowMax_apply (a0 : Arr0) (a1 : Arr1) (b : Fin 32) (r : Fin 1024) :
    val_main_v1 (F := Ideal) a0 a1 (ix2 b r) = Cert.Attn.smax (rowScores a0 a1 b r) := by
  unfold val_main_v1
  rw [Host.reduce_eq_fold_single FloatOps.maximumf _ _ reducesTo_S32x1024x2048_S32x1024_d2 red_rows h_S_]
  have hf : (val_main_v0 (F := Ideal) a0 a1 ∘ red_rows.lift (ix2 b r)) = rowScores a0 a1 b r :=
    funext fun k => (congrArg (val_main_v0 (F := Ideal) a0 a1) (lift_rows b r k)).trans (sim_apply a0 a1 b r ⟨k.val, k.isLt⟩)
  unfold Cert.Attn.smax
  exact congrArg (fun f => Finset.fold max Cert.Attn.negInf f (Finset.univ : Finset (Fin 2048))) hf

/-- The reduce with a maximum body over the last axis of the transposed similarity, at (b, c), is the maximum of column c's scores. -/
theorem colMax_apply (a0 : Arr0) (a1 : Arr1) (b : Fin 32) (c : Fin 2048) :
    val_main_v14 (F := Ideal) a0 a1 (ix2 b c) = Cert.Attn.smax (colScores a0 a1 b c) := by
  unfold val_main_v14
  rw [Host.reduce_eq_fold_single FloatOps.maximumf _ _ reducesTo_S32x2048x1024_S32x2048_d2 red_cols h_S_]
  have hf : (val_main_v13 (F := Ideal) a0 a1 ∘ red_cols.lift (ix2 b c)) = colScores a0 a1 b c :=
    funext fun k => (congrArg (val_main_v13 (F := Ideal) a0 a1) (lift_cols b c k)).trans (simT_apply a0 a1 b c ⟨k.val, k.isLt⟩)
  unfold Cert.Attn.smax
  exact congrArg (fun f => Finset.fold max Cert.Attn.negInf f (Finset.univ : Finset (Fin 1024))) hf

/-! ## The weights over a global row's scores -/

/-- The subtracted maximum, broadcast back over the scores, at (b, r, c). -/
theorem rowMaxB_apply (a0 : Arr0) (a1 : Arr1) (b : Fin 32) (r : Fin 1024) (c : Fin 2048) :
    val_main_v5 (F := Ideal) a0 a1 (ix3 b r c) = Cert.Attn.smax (rowScores a0 a1 b r) := by
  have e : idx_main_v4 (idx_main_v5 (ix3 b r c)) = ix2 b r :=
    funext fun a => Fin.ext (by match a with | ⟨0, _⟩ => rfl | ⟨1, _⟩ => rfl)
  rw [val_main_v5_apply, val_main_v4_apply, val_main_v3_apply, val_main_v2_apply, val_main_cst_0_apply, e, rowMax_apply]
  exact max_negInf _

/-- The exponential of a score less the row's maximum. -/
theorem rowExp_apply (a0 : Arr0) (a1 : Arr1) (b : Fin 32) (r : Fin 1024) (c : Fin 2048) :
    val_main_v7 (F := Ideal) a0 a1 (ix3 b r c)
      = Ideal.exp (rowScores a0 a1 b r c - Cert.Attn.smax (rowScores a0 a1 b r)) := by
  rw [val_main_v7_apply, val_main_v6_apply, rowMaxB_apply, sim_apply, Ideal.hostUnary_exp_def, Ideal.subf_def]

/-- The sum of the row's exponentials. -/
theorem rowSum_apply (a0 : Arr0) (a1 : Arr1) (b : Fin 32) (r : Fin 1024) :
    val_main_v8 (F := Ideal) a0 a1 (ix2 b r)
      = ∑ k : Fin 2048, Ideal.exp (rowScores a0 a1 b r k - Cert.Attn.smax (rowScores a0 a1 b r)) := by
  rw [val_main_v8_apply, val_main_cst_1_apply, Ideal.ofBits_def, Ideal.ofBits_zero_f32, zero_add]
  refine Finset.sum_congr rfl fun k _ => ?_
  have e : idx_main_v8 (ix2 b r) k = ix3 b r k :=
    funext fun a => Fin.ext (by match a with | ⟨0, _⟩ => rfl | ⟨1, _⟩ => rfl | ⟨2, _⟩ => rfl)
  rw [e]
  exact rowExp_apply a0 a1 b r k

/-- The softmax weight of local row c for global row r. -/
theorem rowWeight_apply (a0 : Arr0) (a1 : Arr1) (b : Fin 32) (r : Fin 1024) (c : Fin 2048) :
    val_main_v11 (F := Ideal) a0 a1 (ix3 b r c) = Cert.Attn.weight (rowScores a0 a1 b r) c := by
  have e : idx_main_v9 (idx_main_v10 (ix3 b r c)) = ix2 b r :=
    funext fun a => Fin.ext (by match a with | ⟨0, _⟩ => rfl | ⟨1, _⟩ => rfl)
  rw [val_main_v11_apply, val_main_v10_apply, val_main_v9_apply, e, rowSum_apply, rowExp_apply, Ideal.hostDivf_def]
  rfl

/-- The first 1024 rows: global row r attends over the local rows. -/
theorem rows_apply (a0 : (⟨Cert.ReferenceIdeal.S32x1024x768, .f32⟩ : BufTy).Contents (Elt Ideal))
    (a1 : (⟨Cert.ReferenceIdeal.S32x2048x768, .f32⟩ : BufTy).Contents (Elt Ideal)) (b : Fin 32) (r : Fin 1024) (d : Fin 768) :
    Cert.ReferenceIdeal.ReadP.val_main_v12 (F := Ideal) a0 a1 (ix3 b r d)
      = Cert.Attn.attend (fun c : Fin 2048 => Cert.Attn.sim (fun r' d' => a0 (ix3 b r' d')) (fun c' d' => a1 (ix3 b c' d')) r c)
          (fun c => a1 (ix3 b c d)) := by
  rw [val_main_v12_apply]
  unfold Cert.Attn.attend
  refine Finset.sum_congr rfl fun k _ => ?_
  have el : lidx_main_v12 (ix3 b r d) k = ix3 b r k :=
    funext fun a => Fin.ext (by match a with | ⟨0, _⟩ => rfl | ⟨1, _⟩ => rfl | ⟨2, _⟩ => rfl)
  have er : ridx_main_v12 (ix3 b r d) k = ix3 b k d :=
    funext fun a => Fin.ext (by match a with | ⟨0, _⟩ => rfl | ⟨1, _⟩ => rfl | ⟨2, _⟩ => rfl)
  rw [el, er, rowWeight_apply]

/-! ## The weights over a local row's scores -/

/-- The subtracted maximum, broadcast back over the transposed scores, at (b, c, q). -/
theorem colMaxB_apply (a0 : Arr0) (a1 : Arr1) (b : Fin 32) (c : Fin 2048) (q : Fin 1024) :
    val_main_v18 (F := Ideal) a0 a1 (ix3 b c q) = Cert.Attn.smax (colScores a0 a1 b c) := by
  have e : idx_main_v17 (idx_main_v18 (ix3 b c q)) = ix2 b c :=
    funext fun a => Fin.ext (by match a with | ⟨0, _⟩ => rfl | ⟨1, _⟩ => rfl)
  rw [val_main_v18_apply, val_main_v17_apply, val_main_v16_apply, val_main_v15_apply, val_main_cst_3_apply, e, colMax_apply]
  exact max_negInf _

/-- The exponential of a score less the column's maximum. -/
theorem colExp_apply (a0 : Arr0) (a1 : Arr1) (b : Fin 32) (c : Fin 2048) (q : Fin 1024) :
    val_main_v20 (F := Ideal) a0 a1 (ix3 b c q)
      = Ideal.exp (colScores a0 a1 b c q - Cert.Attn.smax (colScores a0 a1 b c)) := by
  rw [val_main_v20_apply, val_main_v19_apply, colMaxB_apply, simT_apply, Ideal.hostUnary_exp_def, Ideal.subf_def]

/-- The sum of the column's exponentials. -/
theorem colSum_apply (a0 : Arr0) (a1 : Arr1) (b : Fin 32) (c : Fin 2048) :
    val_main_v21 (F := Ideal) a0 a1 (ix2 b c)
      = ∑ k : Fin 1024, Ideal.exp (colScores a0 a1 b c k - Cert.Attn.smax (colScores a0 a1 b c)) := by
  rw [val_main_v21_apply, val_main_cst_4_apply, Ideal.ofBits_def, Ideal.ofBits_zero_f32, zero_add]
  refine Finset.sum_congr rfl fun k _ => ?_
  have e : idx_main_v21 (ix2 b c) k = ix3 b c k :=
    funext fun a => Fin.ext (by match a with | ⟨0, _⟩ => rfl | ⟨1, _⟩ => rfl | ⟨2, _⟩ => rfl)
  rw [e]
  exact colExp_apply a0 a1 b c k

/-- The softmax weight of global row q for local row c. -/
theorem colWeight_apply (a0 : Arr0) (a1 : Arr1) (b : Fin 32) (c : Fin 2048) (q : Fin 1024) :
    val_main_v24 (F := Ideal) a0 a1 (ix3 b c q) = Cert.Attn.weight (colScores a0 a1 b c) q := by
  have e : idx_main_v22 (idx_main_v23 (ix3 b c q)) = ix2 b c :=
    funext fun a => Fin.ext (by match a with | ⟨0, _⟩ => rfl | ⟨1, _⟩ => rfl)
  rw [val_main_v24_apply, val_main_v23_apply, val_main_v22_apply, e, colSum_apply, colExp_apply, Ideal.hostDivf_def]
  rfl

/-- The last 2048 rows: local row c attends over the global rows. -/
theorem cols_apply (a0 : (⟨Cert.ReferenceIdeal.S32x1024x768, .f32⟩ : BufTy).Contents (Elt Ideal))
    (a1 : (⟨Cert.ReferenceIdeal.S32x2048x768, .f32⟩ : BufTy).Contents (Elt Ideal)) (b : Fin 32) (c : Fin 2048) (d : Fin 768) :
    Cert.ReferenceIdeal.ReadP.val_main_v25 (F := Ideal) a0 a1 (ix3 b c d)
      = Cert.Attn.attend (fun q : Fin 1024 => Cert.Attn.sim (fun r' d' => a0 (ix3 b r' d')) (fun c' d' => a1 (ix3 b c' d')) q c)
          (fun q => a0 (ix3 b q d)) := by
  rw [val_main_v25_apply]
  unfold Cert.Attn.attend
  refine Finset.sum_congr rfl fun k _ => ?_
  have el : lidx_main_v25 (ix3 b c d) k = ix3 b c k :=
    funext fun a => Fin.ext (by match a with | ⟨0, _⟩ => rfl | ⟨1, _⟩ => rfl | ⟨2, _⟩ => rfl)
  have er : ridx_main_v25 (ix3 b c d) k = ix3 b k d :=
    funext fun a => Fin.ext (by match a with | ⟨0, _⟩ => rfl | ⟨1, _⟩ => rfl | ⟨2, _⟩ => rfl)
  rw [el, er, colWeight_apply]

/-! ## The concatenation -/

/-- The reference's result is the specification: the global rows' attention over the local rows, then the local
    rows' attention over the global rows. -/
theorem ref_is_G (a0 : (⟨Cert.ReferenceIdeal.S32x1024x768, .f32⟩ : BufTy).Contents (Elt Ideal))
    (a1 : (⟨Cert.ReferenceIdeal.S32x2048x768, .f32⟩ : BufTy).Contents (Elt Ideal)) :
    Cert.ReferenceIdeal.ReadP.val_main_v26 (F := Ideal) a0 a1 = Cert.Attn.G a0 a1 := by
  funext i
  obtain ⟨b, r, d, rfl⟩ : ∃ (b : Fin 32) (r : Fin 3072) (d : Fin 768), i = ix3 b r d := ⟨i 0, i 1, i 2, eq_ix3 i⟩
  show _ = Cert.Attn.out (fun r' d' => a0 (ix3 b r' d')) (fun c' d' => a1 (ix3 b c' d')) r d
  unfold val_main_v26
  by_cases h : r.val < 1024
  · refine (concatenate_pair_apply_left (1 : Fin S32x3072x768.rank) (val_main_v12 (F := Ideal) a0 a1)
        (val_main_v25 (F := Ideal) a0 a1) concatenates_S32x1024x768_S32x2048x768_S32x3072x768_d1 (ix3 b r d) rfl
        (ix3 b (⟨r.val, h⟩ : Fin 1024) d)
        (fun a => by match a with | ⟨0, _⟩ => rfl | ⟨1, _⟩ => rfl | ⟨2, _⟩ => rfl)).trans ?_
    rw [rows_apply]
    exact (Cert.Attn.out_lo _ _ r d h).symm
  · have hr : r.val - 1024 < 2048 := by have := r.isLt; omega
    refine (concatenate_pair_apply_right (1 : Fin S32x3072x768.rank) (val_main_v12 (F := Ideal) a0 a1)
        (val_main_v25 (F := Ideal) a0 a1) concatenates_S32x1024x768_S32x2048x768_S32x3072x768_d1 (ix3 b r d) rfl rfl
        (ix3 b (⟨r.val - 1024, hr⟩ : Fin 2048) d)
        (fun a => by
          match a with
          | ⟨0, _⟩ => exact fun _ => rfl
          | ⟨1, _⟩ => exact fun hne => absurd rfl hne
          | ⟨2, _⟩ => exact fun _ => rfl)
        (by show r.val - 1024 + 1024 = r.val; omega)).trans ?_
    rw [cols_apply]
    exact (Cert.Attn.out_hi _ _ r d h).symm

end Cert.ReferenceIdeal.RefValue

end
-- ==== Proof.lean ====
/-
  The certificate of a bidirectional attention kernel against its jnp reference, over the extended reals.

  For each of 32 batch entries, with g the 1024 global rows and l the 2048 local rows of 768 features, both programs
  form the similarities s r c = sum over d of g r d * l c d, and return 3072 rows: row r < 1024 is the softmax of
  s r . over the local rows applied to l; row 1024 + c is the softmax of s . c over the global rows applied to g
  (Proof/Spec.lean: the function G). The softmax subtracts the maximum, folded from minus infinity, on both sides, and
  the kernel's changes of float format are the identity here, so the two programs compute the same term index by
  index; no law of arithmetic beyond re-indexing sums and maxima is used, and the precondition is never opened.

  The kernel side: one grid point per batch entry; the body copies both blocks, then a first loop of 8 trips stores
  128 rows of similarities and 128 attended rows per trip, and a second loop of 16 trips reads 128 columns of the
  similarities and stores 128 attended rows per trip (Proof/Trips.lean: the pieces; Proof/Payload.lean: the body's
  arithmetic at an index; Proof/Block.lean: each piece agrees with the block function; Proof/OutBlock.lean: so the
  output block is that function; Proof/Cover.lean and Proof/Final.lean: the 32 blocks tile the result array, which
  therefore ends at G of the arguments). The reference side: Proof/RefValue.lean reads its 33 host operations at an
  index and finds G. The three frames are the programs' runs with the result forgotten; the idealization rewrote
  nothing, so the kernel is its own sanctioned idealization.
-/
import proofs.«152790_j51256139710851_2_alg».proof.Defs
import proofs.«152790_j51256139710851_2_alg».proof.Proof.Gen.Kernel
import proofs.«152790_j51256139710851_2_alg».proof.Proof.Gen.KernelIdeal
import proofs.«152790_j51256139710851_2_alg».proof.Proof.Gen.ReferenceIdeal
import proofs.«152790_j51256139710851_2_alg».proof.Proof.Gen.Pre_finite_inputs
import proofs.«152790_j51256139710851_2_alg».proof.Proof.KernelFrame
import proofs.«152790_j51256139710851_2_alg».proof.Proof.KernelIdealFrame
import proofs.«152790_j51256139710851_2_alg».proof.Proof.Final
import proofs.«152790_j51256139710851_2_alg».proof.Proof.RefRun
import proofs.«152790_j51256139710851_2_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_k : @Cert.frame_Kernel Cert.Kernel.Gen.facts Cert.Pre_finite_inputs.Gen.facts :=
  fun m ρ _ => Cert.Kernel.GenP.frame m ρ

/-- The idealized kernel runs and leaves its arguments as they were. -/
theorem frame_ki : @Cert.frame_KernelIdeal Cert.KernelIdeal.Gen.facts Cert.Pre_finite_inputs.Gen.facts :=
  fun m ρ _ => Cert.KernelIdeal.GenP.frame m ρ

/-- The idealized reference runs and leaves its arguments as they were: its run with the result forgotten. -/
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.ValueP.run (F := Ideal) m ρ)

/-- The idealization rewrote no operation. -/
theorem preserves : Cert.preserves_Kernel_KernelIdeal := trivial

/-- From memories that agree on the two arguments both programs end with the result array at G of the arguments:
    the kernel by its blocks, the reference by its operations read at an index. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨_, Cert.KernelIdeal.Final.run m ρ, ?_⟩
  refine (θ_run Cert.ReferenceIdeal.defs _ _).mono (fun _ h c => ⟨(h c).1.trans ?_, (h c).2⟩)
    (Cert.ReferenceIdeal.ValueP.run (F := Ideal) m' ρ')
  rw [(hagree c).1, (hagree c).2]
  exact (Cert.ReferenceIdeal.ReadP.val_main_v26_eq (F := Ideal) _ _).trans (Cert.ReferenceIdeal.RefValue.ref_is_G _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
